-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x3x4096 : Shape := ⟨3, ![16, 3, 4096]⟩
abbrev S16x1x4096 : Shape := ⟨3, ![16, 1, 4096]⟩
abbrev S1x2048x3 : Shape := ⟨3, ![1, 2048, 3]⟩
abbrev S1x3x1024 : Shape := ⟨3, ![1, 3, 1024]⟩
abbrev S1x1x2048 : Shape := ⟨3, ![1, 1, 2048]⟩
abbrev S1x1x4096 : Shape := ⟨3, ![1, 1, 4096]⟩
abbrev S2048x1 : Shape := ⟨2, ![2048, 1]⟩
abbrev S1x4096 : Shape := ⟨2, ![1, 4096]⟩
abbrev S2048x3 : Shape := ⟨2, ![2048, 3]⟩
abbrev S3x1024 : Shape := ⟨2, ![3, 1024]⟩
abbrev S1x1024 : Shape := ⟨2, ![1, 1024]⟩
abbrev S2048x1024 : Shape := ⟨2, ![2048, 1024]⟩
abbrev S2048 : Shape := ⟨1, ![2048]⟩
abbrev S1024 : Shape := ⟨1, ![1024]⟩
abbrev S1x2048 : Shape := ⟨2, ![1, 2048]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x3x4096, .f32⟩
  | .hbm, ⟨3, _⟩ => ⟨S16x1x4096, .f32⟩
  | .hbm, ⟨4, _⟩ => ⟨S16x1x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x2048x3, .f32⟩
  | .local _ .vmem, ⟨1, _⟩ => ⟨S1x2048x3, .f32⟩
  | .local _ .vmem, ⟨2, _⟩ => ⟨S1x3x1024, .f32⟩
  | .local _ .vmem, ⟨3, _⟩ => ⟨S1x3x1024, .f32⟩
  | .local _ .vmem, ⟨4, _⟩ => ⟨S1x1x2048, .f32⟩
  | .local _ .vmem, ⟨5, _⟩ => ⟨S1x1x2048, .f32⟩
  | .local _ .vmem, ⟨6, _⟩ => ⟨S1x1x4096, .f32⟩
  | .local _ .vmem, ⟨7, _⟩ => ⟨S1x1x4096, .f32⟩
  | .local _ .vmem, ⟨8, _⟩ => ⟨S2048x1, .f32⟩
  | .local _ .vmem, ⟨9, _⟩ => ⟨S1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 4], ![false, false, false]⟩

def k0_mult1 (i : grid0.Coords) : BitVec 32 :=
  let arg2 : BitVec 32 := BitVec.ofNat 32 (i 2).val
  let c1024_i32 : BitVec 32 := 1024#32
  let v41 : BitVec 32 := Scalar.muli arg2 c1024_i32
  v41
def k0_off1 (i : grid0.Coords) : Fin 2 → Nat :=
  let c0_14 : Index := 0#32
  let arg2 : BitVec 32 := BitVec.ofNat 32 (i 2).val
  let c1024_i32 : BitVec 32 := 1024#32
  let v41 : BitVec 32 := Scalar.muli arg2 c1024_i32
  let v42 : BitVec 32 := v41
  let v43 : Index := Scalar.indexCast v42
  ![0, v43.toNat]
def k0_cond3 (i : grid0.Coords) : BitVec 1 :=
  let arg2 : BitVec 32 := BitVec.ofNat 32 (i 2).val
  let c3_i32 : BitVec 32 := 3#32
  let v50 : BitVec 1 := Scalar.cmpi .eq arg2 c3_i32
  let v51 : BitVec 32 := Scalar.extui v50
  let c0_i32_16 : BitVec 32 := 0#32
  let v52 : BitVec 1 := Scalar.cmpi .ne v51 c0_i32_16
  v52

def k0_cond4 (i : grid0.Coords) : BitVec 1 :=
  let arg1 : BitVec 32 := BitVec.ofNat 32 (i 1).val
  let c1_i32 : BitVec 32 := 1#32
  let v53 : BitVec 1 := Scalar.cmpi .eq arg1 c1_i32
  let arg2 : BitVec 32 := BitVec.ofNat 32 (i 2).val
  let c3_i32_17 : BitVec 32 := 3#32
  let v54 : BitVec 1 := Scalar.cmpi .eq arg2 c3_i32_17
  let v55 : BitVec 1 := Scalar.andi v53 v54
  let v56 : BitVec 32 := Scalar.extui v55
  let c0_i32_18 : BitVec 32 := 0#32
  let v57 : BitVec 1 := Scalar.cmpi .ne v56 c0_i32_18
  v57

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S16x4096x3_S16x3x4096_0_2_1 : S16x4096x3.Transposes [0, 2, 1] S16x3x4096
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  slices_S2048x3_o0_0_S2048x1 : S2048x3.Slices ![0, 0] S2048x1
  slices_S3x1024_o0_0_S1x1024 : S3x1024.Slices ![0, 0] S1x1024
  broadcasts_S2048x1_S2048x1024 : S2048x1.Broadcasts S2048x1024
  broadcasts_S1x1024_S2048x1024 : S1x1024.Broadcasts S2048x1024
  slices_S2048x3_o0_1_S2048x1 : S2048x3.Slices ![0, 1] S2048x1
  slices_S3x1024_o1_0_S1x1024 : S3x1024.Slices ![1, 0] S1x1024
  slices_S2048x3_o0_2_S2048x1 : S2048x3.Slices ![0, 2] S2048x1
  slices_S3x1024_o2_0_S1x1024 : S3x1024.Slices ![2, 0] S1x1024
  reduces_S2048x1024_S2048 : S2048x1024.Reduces [1] S2048
  shapeCasts_S2048_S2048x1 : S2048.ShapeCasts S2048x1
  reduces_S2048x1024_S1024 : S2048x1024.Reduces [0] S1024
  shapeCasts_S1024_S1x1024 : S1024.ShapeCasts S1x1024
  h_S1x1024 : 0 < S1x1024.numel
  shapeCasts_S1x1024_S1x1024 : S1x1024.ShapeCasts S1x1024
  transposes_S2048x1_p1_0_S1x2048 : S2048x1.Transposes [1, 0] S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reducesTo_S16x1x4096_S_d0_1_2 : S16x1x4096.ReducesTo [0, 1, 2] S_
  h_S_ : 0 < S_.numel
  hrank0 : 0 < grid0.rank
  k0_mult1_dvd : ∀ i : grid0.Coords, 128 ∣ (k0_mult1 i).toNat
  k0_off1_inb : ∀ i : grid0.Coords, ∀ a, (k0_off1 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S16x4096x3.size a
  hwx0_0 : ∀ i : grid0.Coords, EltTy.bits .f32 = 32 ∨ (Rect.block (s := S16x4096x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S16x3x4096.size a
  hwx0_1 : ∀ i : grid0.Coords, EltTy.bits .f32 = 32 ∨ (Rect.block (s := S16x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S16x1x4096.size a
  hwx0_2 : ∀ i : grid0.Coords, EltTy.bits .f32 = 32 ∨ (Rect.block (s := S16x1x4096) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x4096.size a
  hwx0_3 : ∀ i : grid0.Coords, EltTy.bits .f32 = 32 ∨ (Rect.block (s := S16x1x4096) S1x1x4096.size (cc0_transform_3 i) (hinb0_3 i)).WholeWords (EltTy.packing .f32)

variable [Facts₀]

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S_d0_1 : S16x4096.ReducesTo [0, 1] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.LibWholeStore.lean ====
/-
  A buffer read back after stores the LAST of which rewrote the whole block.

  A running accumulator kept in a scratch buffer is rewritten whole on every trip of a loop: whatever the earlier
  stores left, and whatever the buffer held before, a read after the store is the store's payload; and a load
  through the whole-block rectangle reads the buffer.  Nothing here mentions a program.
-/
import Idealize.ShloMosaic.Lib.Pipeline.Value

namespace Cert.LibWholeStore

open Idealize.ShloMosaic

variable {Val : EltTy → Type} {S : Shape} {e : EltTy} {sig : RefSig} {κ : Kind} {sp : Space}

/-- After a list of stores (the last one first) whose last is a store of the whole block, the buffer reads that
    store's payload, whatever the earlier stores and the prior contents were. -/
theorem read_writes_cons_whole [∀ e, Nonempty (Val e)] (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole-block rectangle reads the buffer's contents. -/
theorem readAt_whole (v : View sig κ sp S e) (f : v.ty.Contents Val)
    {off : Fin S.rank → Nat} (h : off = fun _ => 0) (inb : ∀ a, off a + S.size a ≤ S.size a) :
    v.readAt Val (Rect.unit off S.size inb).toLoadRect f = v.read Val f := by
  rw [View.readAt_eq_ld, View.ld_unit_zero h inb]

end Cert.LibWholeStore
-- ==== Proof.KernelPieces.lean ====
/-
  What one run of the kernel body leaves in its two scratch accumulators and in its two output blocks, as values.

  The body keeps a column of 2048 running row minima and a row of 4096 running column minima. At a grid point it may
  first reset either accumulator to +inf, then folds the point's 2048 x 1024 tile of squared distances into both (the
  row accumulator whole, the column accumulator on the 1024 lanes of the point's column chunk), and at the last column
  chunk copies the accumulators out. Each lemma below reads one buffer after one of the five combinations of those
  steps: the row accumulator is the body's row payload over what it held (or over the reset value), the column
  accumulator is the point's chunk overwritten in what it held (`colStep`), the outputs are the accumulators re-laid.
-/
import proofs.«155151_j25074019074268_2_alg».proof.Proof.Gen.KernelIdeal.Frame
import Idealize.ShloMosaic.Lib.Pipeline.Value
import Idealize.ShloMosaic.Lib.WritesUnit
import Idealize.ShloMosaic.Lib.Tactic
import proofs.«155151_j25074019074268_2_alg».proof.Proof.LibWholeStore

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The column accumulator after the body's store into the point's chunk: on the chunk's lanes the body's column
    payload of the tile and of what the accumulator held there, elsewhere what it held. -/
def colStep (i : grid0.Coords) (v31 : FVec F S2048x1024 .f32) (xs1 : Vec F S1x4096 .f32) : Vec F S1x4096 .f32 := fun y =>
  if h : ∀ a, k0_off1 i a ≤ (y a).val ∧ (y a).val < k0_off1 i a + S1x1024.size a then
    k0_pay1 v31 (View.ld xs1 (Rect.unit (s := S1x4096) (k0_off1 i) S1x1024.size (k0_off1_inb i))) (Rect.unitLocal (s := S1x4096) (off := k0_off1 i) (size := S1x1024.size) y h)
  else xs1 y

/-- Away from the first and last column chunk: the row accumulator is the row payload over what it held. -/
theorem rowAcc_B (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S1x4096 .f32) (harg8 : arg8.IsWhole) (hc0 : ¬cond0_0 i) (hc1 : ¬cond0_1 i) (hc2 : ¬cond0_2 i) (hc3 : ¬cond0_3 i)
    (x0 : Vec F S1x2048x3 .f32) (x1 : Vec F S1x3x1024 .f32) (xs0 : Vec F S2048x1 .f32) (xs1 : Vec F S1x4096 .f32) :
    sout0_B_0 c i arg3 harg3 arg4 harg4 arg5 harg5 arg6 harg6 arg7 harg7 arg8 harg8 hc0 hc1 hc2 hc3 x0 x1 xs0 xs1 = k0_pay7 x0 x1 xs0 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1)]
  unfold kernelRun0_B
  dsimp only
  sl_unfold_words
  rw [View.canon_unit_zero hz2]
  simp only [View.readAt_eq_ld, harg3.read_unread, harg4.read_unread, harg7.read_unread, View.ld_unit_zero (S := S1x2048x3) hz3,
    View.ld_unit_zero (S := S1x3x1024) hz3, View.ld_unit_zero (S := S2048x1) hz2]

/-- At the last column chunk, not the last row block: the same. -/
theorem rowAcc_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i)
    (x0 : Vec F S1x2048x3 .f32) (x1 : Vec F S1x3x1024 .f32) (xs0 : Vec F S2048x1 .f32) (xs1 : Vec F S1x4096 .f32) :
    sout0_C_0 c i arg3 harg3 arg4 harg4 arg5 harg5 arg6 harg6 arg7 harg7 arg8 harg8 hc0 hc1 hc2 hc3 x0 x1 xs0 xs1 = k0_pay7 x0 x1 xs0 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz2]
  simp only [View.readAt_eq_ld, harg3.read_unread, harg4.read_unread, harg7.read_unread, View.ld_unit_zero (S := S1x2048x3) hz3,
    View.ld_unit_zero (S := S1x3x1024) hz3, View.ld_unit_zero (S := S2048x1) hz2]

/-- At the last point of a batch element: the same. -/
theorem rowAcc_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i)
    (x0 : Vec F S1x2048x3 .f32) (x1 : Vec F S1x3x1024 .f32) (xs0 : Vec F S2048x1 .f32) (xs1 : Vec F S1x4096 .f32) :
    sout0_E_0 c i arg3 harg3 arg4 harg4 arg5 harg5 arg6 harg6 arg7 harg7 arg8 harg8 hc0 hc1 hc2 hc3 x0 x1 xs0 xs1 = k0_pay7 x0 x1 xs0 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz2]
  simp only [View.readAt_eq_ld, harg3.read_unread, harg4.read_unread, harg7.read_unread, View.ld_unit_zero (S := S1x2048x3) hz3,
    View.ld_unit_zero (S := S1x3x1024) hz3, View.ld_unit_zero (S := S2048x1) hz2]

/-- At the first point of a batch element the row accumulator is reset first: the row payload over the reset value. -/
theorem rowAcc_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S1x4096 .f32) (harg8 : arg8.IsWhole) (hc0 : cond0_0 i) (hc1 : cond0_1 i) (hc2 : ¬cond0_2 i) (hc3 : ¬cond0_3 i)
    (x0 : Vec F S1x2048x3 .f32) (x1 : Vec F S1x3x1024 .f32) :
    sout0_A_0 c i arg3 harg3 arg4 harg4 arg5 harg5 arg6 harg6 arg7 harg7 arg8 harg8 hc0 hc1 hc2 hc3 x0 x1 = k0_pay7 x0 x1 k0_pay4 := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_words
  rw [View.canon_cons_unit_zero (S := S2048x1) hz2, View.readCov_unit_zero (S := S2048x1) _ hz2]
  simp only [View.readAt_eq_ld, harg3.read_unread, harg4.read_unread, View.ld_unit_zero (S := S1x2048x3) hz3,
    View.ld_unit_zero (S := S1x3x1024) hz3]

/-- At the first column chunk of the second row block: likewise. -/
theorem rowAcc_D (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S1x4096 .f32) (harg8 : arg8.IsWhole) (hc0 : cond0_0 i) (hc1 : ¬cond0_1 i) (hc2 : ¬cond0_2 i) (hc3 : ¬cond0_3 i)
    (x0 : Vec F S1x2048x3 .f32) (x1 : Vec F S1x3x1024 .f32) (xs1 : Vec F S1x4096 .f32) :
    sout0_D_0 c i arg3 harg3 arg4 harg4 arg5 harg5 arg6 harg6 arg7 harg7 arg8 harg8 hc0 hc1 hc2 hc3 x0 x1 xs1 = k0_pay7 x0 x1 k0_pay4 := by
  unfold sout0_D_0
  rw [View.read_writes_eq_canon _ _ _ (scover0_D_0 c i arg3 harg3 arg4 harg4 arg5 harg5 arg6 harg6 arg7 harg7 arg8 harg8 hc0 hc1 hc2 hc3 x0 x1 xs1)]
  unfold kernelRun0_D
  dsimp only
  sl_unfold_words
  rw [View.canon_cons_unit_zero (S := S2048x1) hz2, View.readCov_unit_zero (S := S2048x1) _ hz2]
  simp only [View.readAt_eq_ld, harg3.read_unread, harg4.read_unread, View.ld_unit_zero (S := S1x2048x3) hz3,
    View.ld_unit_zero (S := S1x3x1024) hz3]

/-- The column accumulator after a point that does not reset it: the point's chunk overwritten in what it held. -/
theorem colAcc_B (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S1x4096 .f32) (harg8 : arg8.IsWhole) (hc0 : ¬cond0_0 i) (hc1 : ¬cond0_1 i) (hc2 : ¬cond0_2 i) (hc3 : ¬cond0_3 i)
    (x0 : Vec F S1x2048x3 .f32) (x1 : Vec F S1x3x1024 .f32) (xs0 : Vec F S2048x1 .f32) (xs1 : Vec F S1x4096 .f32) :
    sout0_B_1 c i arg3 harg3 arg4 harg4 arg5 harg5 arg6 harg6 arg7 harg7 arg8 harg8 hc0 hc1 hc2 hc3 x0 x1 xs0 xs1 = colStep i (k0_pay6 x0 x1) xs1 := by
  funext y
  unfold sout0_B_1 kernelRun0_B
  dsimp only
  sl_unfold_words
  refine (View.read_writes_cons_unit (off' := k0_off1 i) arg8.view _ (k0_off1_inb i) _ [] y rfl).trans ?_
  simp only [View.writes_nil, View.readAt_eq_ld, harg3.read_unread, harg4.read_unread, harg8.read_unread,
    View.ld_unit_zero (S := S1x2048x3) hz3, View.ld_unit_zero (S := S1x3x1024) hz3]
  rfl

/-- Likewise at the last column chunk. -/
theorem colAcc_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i)
    (x0 : Vec F S1x2048x3 .f32) (x1 : Vec F S1x3x1024 .f32) (xs0 : Vec F S2048x1 .f32) (xs1 : Vec F S1x4096 .f32) :
    sout0_C_1 c i arg3 harg3 arg4 harg4 arg5 harg5 arg6 harg6 arg7 harg7 arg8 harg8 hc0 hc1 hc2 hc3 x0 x1 xs0 xs1 = colStep i (k0_pay6 x0 x1) xs1 := by
  funext y
  unfold sout0_C_1 kernelRun0_C
  dsimp only
  sl_unfold_words
  refine (View.read_writes_cons_unit (off' := k0_off1 i) arg8.view _ (k0_off1_inb i) _ [] y rfl).trans ?_
  simp only [View.writes_nil, View.readAt_eq_ld, harg3.read_unread, harg4.read_unread, harg8.read_unread,
    View.ld_unit_zero (S := S1x2048x3) hz3, View.ld_unit_zero (S := S1x3x1024) hz3]
  rfl

/-- Likewise at the first column chunk of the second row block. -/
theorem colAcc_D (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S1x4096 .f32) (harg8 : arg8.IsWhole) (hc0 : cond0_0 i) (hc1 : ¬cond0_1 i) (hc2 : ¬cond0_2 i) (hc3 : ¬cond0_3 i)
    (x0 : Vec F S1x2048x3 .f32) (x1 : Vec F S1x3x1024 .f32) (xs1 : Vec F S1x4096 .f32) :
    sout0_D_1 c i arg3 harg3 arg4 harg4 arg5 harg5 arg6 harg6 arg7 harg7 arg8 harg8 hc0 hc1 hc2 hc3 x0 x1 xs1 = colStep i (k0_pay6 x0 x1) xs1 := by
  funext y
  unfold sout0_D_1 kernelRun0_D
  dsimp only
  sl_unfold_words
  refine (View.read_writes_cons_unit (off' := k0_off1 i) arg8.view _ (k0_off1_inb i) _ [] y rfl).trans ?_
  simp only [View.writes_nil, View.readAt_eq_ld, harg3.read_unread, harg4.read_unread, harg8.read_unread,
    View.ld_unit_zero (S := S1x2048x3) hz3, View.ld_unit_zero (S := S1x3x1024) hz3]
  rfl

/-- Likewise at the last point of a batch element. -/
theorem colAcc_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i)
    (x0 : Vec F S1x2048x3 .f32) (x1 : Vec F S1x3x1024 .f32) (xs0 : Vec F S2048x1 .f32) (xs1 : Vec F S1x4096 .f32) :
    sout0_E_1 c i arg3 harg3 arg4 harg4 arg5 harg5 arg6 harg6 arg7 harg7 arg8 harg8 hc0 hc1 hc2 hc3 x0 x1 xs0 xs1 = colStep i (k0_pay6 x0 x1) xs1 := by
  funext y
  unfold sout0_E_1 kernelRun0_E
  dsimp only
  sl_unfold_words
  refine (View.read_writes_cons_unit (off' := k0_off1 i) arg8.view _ (k0_off1_inb i) _ [] y rfl).trans ?_
  simp only [View.writes_nil, View.readAt_eq_ld, harg3.read_unread, harg4.read_unread, harg8.read_unread,
    View.ld_unit_zero (S := S1x2048x3) hz3, View.ld_unit_zero (S := S1x3x1024) hz3]
  rfl

/-- At the first point of a batch element the column accumulator is reset first: the point's chunk overwritten in the reset value. -/
theorem colAcc_A (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S1x4096 .f32) (harg8 : arg8.IsWhole) (hc0 : cond0_0 i) (hc1 : cond0_1 i) (hc2 : ¬cond0_2 i) (hc3 : ¬cond0_3 i)
    (x0 : Vec F S1x2048x3 .f32) (x1 : Vec F S1x3x1024 .f32) :
    sout0_A_1 c i arg3 harg3 arg4 harg4 arg5 harg5 arg6 harg6 arg7 harg7 arg8 harg8 hc0 hc1 hc2 hc3 x0 x1 = colStep i (k0_pay6 x0 x1) k0_pay5 := by
  funext y
  unfold sout0_A_1 kernelRun0_A
  dsimp only
  sl_unfold_words
  refine (View.read_writes_cons_unit (off' := k0_off1 i) VS0_1 _ (k0_off1_inb i) _ _ y rfl).trans ?_
  simp only [View.readAt_eq_ld, harg3.read_unread, harg4.read_unread,
    Cert.LibWholeStore.read_writes_cons_whole (S := S1x4096) _ _ hz2,
    View.ld_unit_zero (S := S1x2048x3) hz3, View.ld_unit_zero (S := S1x3x1024) hz3]
  rfl

/-- At the last column chunk the row output block is the row accumulator, just updated, re-laid as a row. -/
theorem rowOut_C (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S1x4096 .f32) (harg8 : arg8.IsWhole) (hc0 : ¬cond0_0 i) (hc1 : ¬cond0_1 i) (hc2 : cond0_2 i) (hc3 : ¬cond0_3 i)
    (x0 : Vec F S1x2048x3 .f32) (x1 : Vec F S1x3x1024 .f32) (xs0 : Vec F S2048x1 .f32) (xs1 : Vec F S1x4096 .f32) :
    out0_C_2 c i arg3 harg3 arg4 harg4 arg5 harg5 arg6 harg6 arg7 harg7 arg8 harg8 hc0 hc1 hc2 hc3 x0 x1 xs0 xs1 = k0_pay2 (k0_pay7 x0 x1 xs0) := by
  unfold out0_C_2
  rw [View.read_writes_eq_canon _ _ _ (cover0_C_2 c i arg3 harg3 arg4 harg4 arg5 harg5 arg6 harg6 arg7 harg7 arg8 harg8 hc0 hc1 hc2 hc3 x0 x1 xs0 xs1)]
  unfold kernelRun0_C
  dsimp only
  sl_unfold_words
  rw [View.canon_unit_zero hz3, View.readCov_unit_zero (S := S2048x1) _ hz2]
  simp only [View.readAt_eq_ld, harg3.read_unread, harg4.read_unread, harg7.read_unread, View.ld_unit_zero (S := S1x2048x3) hz3,
    View.ld_unit_zero (S := S1x3x1024) hz3, View.ld_unit_zero (S := S2048x1) hz2]

/-- Likewise at the last point of a batch element. -/
theorem rowOut_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i)
    (x0 : Vec F S1x2048x3 .f32) (x1 : Vec F S1x3x1024 .f32) (xs0 : Vec F S2048x1 .f32) (xs1 : Vec F S1x4096 .f32) :
    out0_E_2 c i arg3 harg3 arg4 harg4 arg5 harg5 arg6 harg6 arg7 harg7 arg8 harg8 hc0 hc1 hc2 hc3 x0 x1 xs0 xs1 = k0_pay2 (k0_pay7 x0 x1 xs0) := by
  unfold out0_E_2
  rw [View.read_writes_eq_canon _ _ _ (cover0_E_2 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3, View.readCov_unit_zero (S := S2048x1) _ hz2]
  simp only [View.readAt_eq_ld, harg3.read_unread, harg4.read_unread, harg7.read_unread, View.ld_unit_zero (S := S1x2048x3) hz3,
    View.ld_unit_zero (S := S1x3x1024) hz3, View.ld_unit_zero (S := S2048x1) hz2]

/-- At the last point of a batch element the column output block is the column accumulator, just updated, with a unit axis added. -/
theorem colOut_E (c : Dev nD) (i : grid0.Coords) (arg3 : Memref sig .tc .vmem S1x2048x3 .f32) (harg3 : arg3.IsWhole) (arg4 : Memref sig .tc .vmem S1x3x1024 .f32) (harg4 : arg4.IsWhole) (arg5 : Memref sig .tc .vmem S1x1x2048 .f32) (harg5 : arg5.IsWhole) (arg6 : Memref sig .tc .vmem S1x1x4096 .f32) (harg6 : arg6.IsWhole) (arg7 : Memref sig .tc .vmem S2048x1 .f32) (harg7 : arg7.IsWhole) (arg8 : Memref sig .tc .vmem S1x4096 .f32) (harg8 : arg8.IsWhole) (hc0 : ¬cond0_0 i) (hc1 : ¬cond0_1 i) (hc2 : cond0_2 i) (hc3 : cond0_3 i)
    (x0 : Vec F S1x2048x3 .f32) (x1 : Vec F S1x3x1024 .f32) (xs0 : Vec F S2048x1 .f32) (xs1 : Vec F S1x4096 .f32) :
    out0_E_3 c i arg3 harg3 arg4 harg4 arg5 harg5 arg6 harg6 arg7 harg7 arg8 harg8 hc0 hc1 hc2 hc3 x0 x1 xs0 xs1 = k0_pay3 (colStep i (k0_pay6 x0 x1) xs1) := by
  unfold out0_E_3
  rw [View.read_writes_eq_canon _ _ _ (cover0_E_3 c i arg3 harg3 arg4 harg4 arg5 harg5 arg6 harg6 arg7 harg7 arg8 harg8 hc0 hc1 hc2 hc3 x0 x1 xs0 xs1)]
  unfold kernelRun0_E
  dsimp only
  sl_unfold_words
  rw [View.canon_unit_zero hz3]
  refine congrArg k0_pay3 ?_
  refine (Cert.LibWholeStore.readAt_whole arg8.view _ hz2 _).trans ?_
  funext y
  refine (View.read_writes_cons_unit (off' := k0_off1 i) arg8.view _ (k0_off1_inb i) _ [] y rfl).trans ?_
  simp only [View.writes_nil, View.readAt_eq_ld, harg3.read_unread, harg4.read_unread, harg8.read_unread,
    View.ld_unit_zero (S := S1x2048x3) hz3, View.ld_unit_zero (S := S1x3x1024) hz3]
  rfl

end Cert.KernelIdeal.Pieces
end
-- ==== Proof.LibAxisFold.lean ====
/-
  Reductions of a matrix along one axis, read at an index.

  At the ideal instance a float is an extended real and a reduction is the exact fold in any order. For an `[a, b]`
  matrix: the sum of row `p` (a kernel's `vector.multi_reduction <add>` over axis 1) and of column `q` (over axis 0)
  are the sums of that row's, that column's, entries; the smallest entry of row `p` (`<minimumf>` over axis 1) and of
  column `q` (over axis 0) are the fold of `min` from the value of the word of `+∞` over those entries. The index facts
  under them: over row `p` the index with column `k` put back is `(p, k)`, over column `q` the index with row `k` put
  back is `(k, q)`. Each reduction's accumulator is the word a program writes for it (the zero word, the word of `+∞`),
  and the hypothesis about it is the reflexive equation of that word.
-/
import Idealize.ShloMosaic.Lib.IdealHost

namespace Cert.LibAxisFold

open Idealize.ShloMosaic Idealize.ShloMosaic.ValueIdx

variable {a b : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- Over column `q` of an `[a, b]` array, the index whose dropped (row) coordinate is `k` is `(k, q)`. -/
theorem lift_col (h : (⟨2, ![a, b]⟩ : Shape).Reduces [0] ⟨1, ![b]⟩) (q : Fin b) (k : Fin a) :
    h.lift (ix1 q) k = ix2 k q := by
  funext c
  match c with
  | ⟨0, _⟩ => exact Fin.ext rfl
  | ⟨1, _⟩ => exact Fin.ext rfl

/-- A kernel's f32 minimum along the columns started from the word of `+∞`, read at row `p`: the fold of `min` from
    that word's value over the row's entries. -/
theorem laneMin_row (v : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (p : Fin a) :
    multiReduction .minimumf [1] ⟨1, ![a]⟩ v 0x7F800000#32 h hφ hacc (ix1 p)
      = (Finset.univ : Finset (Fin b)).fold min (Ideal.ofBits .f32 0x7F800000#32) fun k => v (ix2 p k) := by
  refine (multiReduction_minimumf_eq_fold v 0x7F800000#32 h hφ hacc (ix1 p)).trans ?_
  refine (h.fold_filter_drop_single _ _ v (ix1 p)).trans ?_
  exact congrArg (fun f => Finset.fold min (Ideal.ofBits .f32 0x7F800000#32) f (Finset.univ : Finset (Fin b)))
    (funext fun k => congrArg v (lift_row h p k))

/-- A kernel's f32 minimum down the rows started from the word of `+∞`, read at column `q`: the fold of `min` from
    that word's value over the column's entries. -/
theorem sublaneMin_col (v : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (q : Fin b) :
    multiReduction .minimumf [0] ⟨1, ![b]⟩ v 0x7F800000#32 h hφ hacc (ix1 q)
      = (Finset.univ : Finset (Fin a)).fold min (Ideal.ofBits .f32 0x7F800000#32) fun k => v (ix2 k q) := by
  refine (multiReduction_minimumf_eq_fold v 0x7F800000#32 h hφ hacc (ix1 q)).trans ?_
  refine (h.fold_filter_drop_single _ _ v (ix1 q)).trans ?_
  exact congrArg (fun f => Finset.fold min (Ideal.ofBits .f32 0x7F800000#32) f (Finset.univ : Finset (Fin a)))
    (funext fun k => congrArg v (lift_col h q k))

/-- A kernel's f32 sum along the columns started from the zero word, read at row `p`: the sum of the row's entries. -/
theorem laneSum_row (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- A kernel's f32 sum down the rows started from the zero word, read at column `q`: the sum of the column's entries. -/
theorem sublaneSum_col (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ k : Fin a, v (ix2 k q) :=
  (Ideal.multiReduction_add_single v 0x00000000#32 h hφ hacc (ix1 q)).trans
    (Finset.sum_congr rfl fun k _ => congrArg v (lift_col h q k))

end Cert.LibAxisFold
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.Consts.lean ====
/-
  The float constants the two programs spell, as the extended reals their words denote: the zero word is 0, the
  word of 1.0 is 1, the word of 2.0 is the real 2, and the word of +inf is the top of the extended reals. One module
  states them all, so that no other module opens the decoding of a word.
-/
import Idealize.ShloMosaic.PureOps.Ideal
import proofs.«155151_j25074019074268_2_alg».proof.Proof.LibFinite

noncomputable section

namespace Cert.Consts

open Idealize.ShloMosaic

/-- The zero word denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of 2.0 denotes the real 2. -/
theorem ofBits_two : Ideal.ofBits .f32 0x40000000#32 = ((2 : ℝ) : EReal) := by
  simp [Ideal.ofBits, Ideal.ieee, -EReal.coe_mul]; norm_num

/-- The word of +inf denotes the top element. -/
theorem ofBits_top : Ideal.ofBits .f32 0x7F800000#32 = ⊤ := Cert.Lib.Finite.ofBits_inf

end Cert.Consts

end
-- ==== Proof.LibMinChunks.lean ====
/-
  Minima over a finite index set: cut into consecutive chunks, accumulated chunk by chunk, and pushed through a
  monotone map.

  The nearest-neighbour distance is a minimum over 16384 memory rows.  One side takes it in one sweep; the other
  sweeps 16 chunks of 1024 rows, keeps a running minimum across the chunks, and applies the (monotone) map
  `x ↦ sqrt (max (c + x) 0)` once, after the minimum, where the first applies it to every entry before the
  minimum.  All three facts are order theory in a linear order with a top element, stated here without any program;
  a minimum is written as the fold of `min` from `⊤`, the form both reductions are read in, and every proof goes
  through its universal property: `c` is below the minimum exactly when it is below every entry.
-/
import Mathlib

namespace KnnMin

open Finset

variable {α : Type*} [LinearOrder α] [OrderTop α]

/-- `c` is below the minimum of a family exactly when it is below every member. -/
theorem le_minAll {ι : Type*} [Fintype ι] (f : ι → α) (c : α) :
    c ≤ (univ : Finset ι).fold min ⊤ f ↔ ∀ x, c ≤ f x := by
  rw [Finset.le_fold_min]
  exact ⟨fun h x => h.2 x (mem_univ x), fun h => ⟨le_top, fun x _ => h x⟩⟩

/-- The position `k * b + l` of entry `l` of chunk `k`, among `n = a * b` positions. -/
def pos {a b n : ℕ} (hn : a * b = n) (k : Fin a) (l : Fin b) : Fin n :=
  ⟨k.val * b + l.val, by
    have hk := k.isLt
    have hl := l.isLt
    calc k.val * b + l.val < k.val * b + b := by omega
      _ = (k.val + 1) * b := by ring
      _ ≤ a * b := Nat.mul_le_mul_right b hk
      _ = n := hn⟩

/-- Every position is entry `j % b` of chunk `j / b`. -/
theorem exists_pos {a b n : ℕ} (hn : a * b = n) (j : Fin n) : ∃ (k : Fin a) (l : Fin b), j = pos hn k l := by
  subst hn
  have hb : 0 < b := by
    rcases Nat.eq_zero_or_pos b with hb | hb
    · exact absurd j.isLt (by simp [hb])
    · exact hb
  have hk : j.val / b < a := (Nat.div_lt_iff_lt_mul hb).2 j.isLt
  have hl : j.val % b < b := Nat.mod_lt _ hb
  exact ⟨⟨j.val / b, hk⟩, ⟨j.val % b, hl⟩, Fin.ext (by simp only [pos]; exact (Nat.div_add_mod' j.val b).symm)⟩

/-- The minimum of the chunk minima is the minimum over all positions. -/
theorem min_chunks {a b n : ℕ} (hn : a * b = n) (h : Fin n → α) :
    ((univ : Finset (Fin a)).fold min ⊤ fun k => (univ : Finset (Fin b)).fold min ⊤ fun l => h (pos hn k l))
      = (univ : Finset (Fin n)).fold min ⊤ h := by
  refine eq_of_forall_le_iff fun c => ?_
  rw [le_minAll, le_minAll]
  constructor
  · intro hc j
    obtain ⟨k, l, rfl⟩ := exists_pos hn j
    exact (le_minAll _ c).1 (hc k) l
  · intro hc k
    exact (le_minAll _ c).2 fun l => hc (pos hn k l)

/-- The running minimum before chunk `k`: `⊤` before the first, then each chunk's value folded in. -/
def runMin (a : ℕ) (tile : Fin a → α) : ℕ → α
  | 0 => ⊤
  | k + 1 => if h : k < a then min (runMin a tile k) (tile ⟨k, h⟩) else runMin a tile k

theorem le_runMin (a : ℕ) (tile : Fin a → α) (c : α) :
    ∀ k, c ≤ runMin a tile k ↔ ∀ j : Fin a, j.val < k → c ≤ tile j
  | 0 => by simp [runMin]
  | k + 1 => by
    by_cases h : k < a
    · rw [runMin, dif_pos h, le_min_iff, le_runMin a tile c k]
      constructor
      · rintro ⟨h1, h2⟩ j hj
        rcases Nat.lt_succ_iff_lt_or_eq.mp hj with hlt | heq
        · exact h1 j hlt
        · have : j = ⟨k, h⟩ := Fin.ext heq
          rw [this]; exact h2
      · intro hc
        exact ⟨fun j hj => hc j (Nat.lt_succ_of_lt hj), hc ⟨k, h⟩ (Nat.lt_succ_self k)⟩
    · rw [runMin, dif_neg h, le_runMin a tile c k]
      constructor
      · intro hc j hj
        exact hc j (by have := j.isLt; omega)
      · intro hc j hj
        exact hc j (Nat.lt_succ_of_lt hj)

/-- After the last chunk the running minimum is the minimum of all the chunk values. -/
theorem runMin_all (a : ℕ) (tile : Fin a → α) : runMin a tile a = (univ : Finset (Fin a)).fold min ⊤ tile := by
  refine eq_of_forall_le_iff fun c => ?_
  rw [le_runMin, le_minAll]
  exact ⟨fun h j => h j j.isLt, fun h j _ => h j⟩

/-- A monotone map commutes with the minimum of a nonempty family (its value at `⊤` is above its value at any member,
    so it does not matter what that value is). -/
theorem map_minAll {β : Type*} [LinearOrder β] [OrderTop β] {ι : Type*} [Fintype ι] [Nonempty ι]
    (g : α → β) (hg : Monotone g) (f : ι → α) :
    g ((univ : Finset ι).fold min ⊤ f) = (univ : Finset ι).fold min ⊤ fun x => g (f x) := by
  have e : (univ : Finset ι).fold min (g ⊤) (fun x => g (f x)) = g ((univ : Finset ι).fold min ⊤ f) :=
    Finset.fold_hom (op := min) (op' := min) (m := g) (fun x y => hg.map_min)
  rw [← e]
  refine eq_of_forall_le_iff fun c => ?_
  rw [Finset.le_fold_min, le_minAll]
  constructor
  · exact fun h x => h.2 x (mem_univ x)
  · intro h
    obtain ⟨x0⟩ := ‹Nonempty ι›
    exact ⟨(h x0).trans (hg le_top), fun x _ => h x⟩

end KnnMin
-- ==== Proof.Spec.lean ====
/-
  The mathematics of the nearest-neighbour (Chamfer) distance, free of any program.

  For two clouds of points in three coordinates the squared distance of a pair is written in two ways: as the sum of
  the three squared coordinate differences, and as the two squared norms added, less twice the inner product. On real
  numbers the two are one number (the binomial formula, three times); on the extended reals they differ at the
  infinities, which is why the identity is stated for real coordinates.

  A minimum over 4096 candidates is taken either in one sweep or chunk by chunk with a running minimum kept between
  the chunks; the chunked form is the library's running minimum, and this file adds the one step equation it is
  advanced by.
-/
import Mathlib
import proofs.«155151_j25074019074268_2_alg».proof.Proof.LibMinChunks

noncomputable section

namespace Chamfer

open Finset

/-- The squared distance as the sum of the squared coordinate differences, added left to right. -/
def dDiff (a0 a1 a2 b0 b1 b2 : EReal) : EReal :=
  ((a0 - b0) * (a0 - b0) + (a1 - b1) * (a1 - b1)) + (a2 - b2) * (a2 - b2)

/-- The squared distance as the squared norms (each a sum started from `z`) added, less `w` times the inner product. -/
def dExp (z w a0 a1 a2 b0 b1 b2 : EReal) : EReal :=
  ((z + (a0 * a0 + a1 * a1 + a2 * a2)) + (z + (b0 * b0 + b1 * b1 + b2 * b2)))
    - w * (a0 * b0 + a1 * b1 + a2 * b2)

/-- On real coordinates, with the sums started from 0 and the factor 2, the two forms are one number. -/
theorem dDiff_eq_dExp (a0 a1 a2 b0 b1 b2 : ℝ) :
    dDiff a0 a1 a2 b0 b1 b2 = dExp ((0 : ℝ) : EReal) ((2 : ℝ) : EReal) a0 a1 a2 b0 b1 b2 := by
  unfold dDiff dExp
  simp only [← EReal.coe_sub, ← EReal.coe_mul, ← EReal.coe_add]
  exact congrArg _ (by ring)

/-- The running minimum advances by one chunk: before chunk `k + 1` it is the minimum of what it was before chunk
    `k` and chunk `k`'s own minimum. -/
theorem runMin_succ {α : Type*} [LinearOrder α] [OrderTop α] (a : ℕ) (tile : Fin a → α) (k : ℕ) (h : k < a) :
    KnnMin.runMin a tile (k + 1) = min (KnnMin.runMin a tile k) (tile ⟨k, h⟩) := by
  rw [KnnMin.runMin, dif_pos h]

/-- Before the first chunk the running minimum is the top element. -/
theorem runMin_zero {α : Type*} [LinearOrder α] [OrderTop α] (a : ℕ) (tile : Fin a → α) :
    KnnMin.runMin a tile 0 = ⊤ := rfl

end Chamfer

end
-- ==== Proof.KernelValues.lean ====
/-
  The kernel body's payloads read at an index, at the ideal instance.

  The tile of squared distances at (r, l) is the sum of the three squared coordinate differences of row r of the first
  block and lane l of the second; the row payload at row r is the minimum of what the accumulator held there and the
  smallest entry of row r of the tile; the column payload at lane l is the minimum of what the accumulator held there
  and the smallest entry of column l of the tile; the reset values are +inf; the two output payloads re-lay an
  accumulator without changing an entry.
-/
import proofs.«155151_j25074019074268_2_alg».proof.Proof.Gen.KernelIdeal.Frame
import proofs.«155151_j25074019074268_2_alg».proof.Proof.LibAxisFold
import proofs.«155151_j25074019074268_2_alg».proof.Proof.Consts
import proofs.«155151_j25074019074268_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Values

open Cert.KernelIdeal Cert.KernelIdeal.Gen

/-- Coordinate `d` of row `r` of the first block, as the tile's first operand reads it. -/
theorem rowCoord (x0 : Vec Ideal S1x2048x3 .f32) (d : Fin 3) (off : Fin 2 → ℕ) (hoff : off = ![0, d.val])
    (hc : S1x2048x3.ShapeCasts S2048x3) (hs : S2048x3.Slices off S2048x1) (hb : S2048x1.Broadcasts S2048x1024)
    (r : Fin 2048) (l : Fin 1024) :
    broadcastTo S2048x1024 (extractStridedSlice S2048x1 off (shapeCast S2048x3 x0 hc) hs) hb (ix2 r l)
      = x0 (ix3 0 r d) := by
  subst hoff
  refine (broadcastTo_apply _ hb (ix2 r l) (ix2 r 0) fun a => ?_).trans ?_
  · match a with
    | ⟨0, _⟩ => rfl
    | ⟨1, _⟩ => rfl
  refine (extractStridedSlice_apply _ _ hs (ix2 r 0) (ix2 r d) fun a => ?_).trans ?_
  · match a with
    | ⟨0, _⟩ => show r.val = 0 + r.val; omega
    | ⟨1, _⟩ => show d.val = d.val + 0; omega
  refine (shapeCast_apply x0 hc (ix2 r d) (ix3 0 r d) ?_)
  rw [Shape.rowMajor_val_three, Shape.rowMajor_val_two]
  show (0 * 2048 + r.val) * 3 + d.val = r.val * 3 + d.val
  omega

/-- Coordinate `d` of lane `l` of the second block, as the tile's second operand reads it. -/
theorem laneCoord (x1 : Vec Ideal S1x3x1024 .f32) (d : Fin 3) (off : Fin 2 → ℕ) (hoff : off = ![d.val, 0])
    (hc : S1x3x1024.ShapeCasts S3x1024) (hs : S3x1024.Slices off S1x1024) (hb : S1x1024.Broadcasts S2048x1024)
    (r : Fin 2048) (l : Fin 1024) :
    broadcastTo S2048x1024 (extractStridedSlice S1x1024 off (shapeCast S3x1024 x1 hc) hs) hb (ix2 r l)
      = x1 (ix3 0 d l) := by
  subst hoff
  refine (broadcastTo_apply _ hb (ix2 r l) (ix2 0 l) fun a => ?_).trans ?_
  · match a with
    | ⟨0, _⟩ => rfl
    | ⟨1, _⟩ => rfl
  refine (extractStridedSlice_apply _ _ hs (ix2 0 l) (ix2 d l) fun a => ?_).trans ?_
  · match a with
    | ⟨0, _⟩ => show d.val = d.val + 0; omega
    | ⟨1, _⟩ => show l.val = 0 + l.val; omega
  refine (shapeCast_apply x1 hc (ix2 d l) (ix3 0 d l) ?_)
  rw [Shape.rowMajor_val_three, Shape.rowMajor_val_two]
  show (0 * 3 + d.val) * 1024 + l.val = d.val * 1024 + l.val
  omega

/-- The tile entry at (r, l): the squared distance of row `r` of the first block and lane `l` of the second. -/
theorem tile_at (x0 : Vec Ideal S1x2048x3 .f32) (x1 : Vec Ideal S1x3x1024 .f32) (r : Fin 2048) (l : Fin 1024) :
    k0_pay6 x0 x1 (ix2 r l)
      = Chamfer.dDiff (x0 (ix3 0 r 0)) (x0 (ix3 0 r 1)) (x0 (ix3 0 r 2)) (x1 (ix3 0 0 l)) (x1 (ix3 0 1 l)) (x1 (ix3 0 2 l)) := by
  unfold k0_pay6 Chamfer.dDiff
  simp only [addf_apply, mulf_apply, subf_apply]
  rw [rowCoord x0 0 ![0, 0] rfl, rowCoord x0 1 ![0, 1] rfl, rowCoord x0 2 ![0, 2] rfl, laneCoord x1 0 ![0, 0] rfl,
    laneCoord x1 1 ![1, 0] rfl, laneCoord x1 2 ![2, 0] rfl]

/-- The reset value of the row accumulator is +inf everywhere. -/
theorem rowReset_at (y : S2048x1.Idx) : k0_pay4 (F := Ideal) y = ⊤ := by
  unfold k0_pay4
  rw [shapeCast_self]
  exact Cert.Consts.ofBits_top

/-- The reset value of the column accumulator is +inf everywhere. -/
theorem colReset_at (y : S1x4096.Idx) : k0_pay5 (F := Ideal) y = ⊤ := by
  unfold k0_pay5
  rw [shapeCast_self]
  exact Cert.Consts.ofBits_top

/-- The row payload at row `r`: the smaller of what the accumulator held there and the smallest entry of row `r` of
    the tile. -/
theorem rowPayload_at (x0 : Vec Ideal S1x2048x3 .f32) (x1 : Vec Ideal S1x3x1024 .f32) (xs0 : Vec Ideal S2048x1 .f32)
    (r : Fin 2048) :
    k0_pay7 x0 x1 xs0 (ix2 r 0)
      = min (xs0 (ix2 r 0)) ((Finset.univ : Finset (Fin 1024)).fold min ⊤ fun l => k0_pay6 x0 x1 (ix2 r l)) := by
  unfold k0_pay7
  rw [shapeCast_self]
  refine congrArg (min (xs0 (ix2 r 0))) ?_
  refine (shapeCast_apply _ _ (ix2 r 0) (ix1 r) ?_).trans ?_
  · rw [Shape.rowMajor_val_one, Shape.rowMajor_val_two]
    show r.val = r.val * 1 + 0
    omega
  refine (Cert.LibAxisFold.laneMin_row (k0_pay6 x0 x1) _ _ _ r).trans ?_
  rw [Cert.Consts.ofBits_top]

/-- The column payload at lane `l`: the smaller of what the accumulator held there and the smallest entry of column
    `l` of the tile. -/
theorem colPayload_at (v31 : FVec Ideal S2048x1024 .f32) (v44 : Vec Ideal S1x1024 .f32) (l : Fin 1024) :
    k0_pay1 v31 v44 (ix2 0 l)
      = min (v44 (ix2 0 l)) ((Finset.univ : Finset (Fin 2048)).fold min ⊤ fun r => v31 (ix2 r l)) := by
  unfold k0_pay1
  rw [shapeCast_self]
  refine congrArg (min (v44 (ix2 0 l))) ?_
  refine (shapeCast_apply _ _ (ix2 0 l) (ix1 l) ?_).trans ?_
  · rw [Shape.rowMajor_val_one, Shape.rowMajor_val_two]
    show l.val = 0 * 1024 + l.val
    omega
  refine (Cert.LibAxisFold.sublaneMin_col v31 _ _ _ l).trans ?_
  rw [Cert.Consts.ofBits_top]

/-- The row output payload re-lays the column of row minima as a row: entry `r` is the accumulator's row `r`. -/
theorem rowOut_at (v58 : Vec Ideal S2048x1 .f32) (r : Fin 2048) : k0_pay2 v58 (ix3 0 0 r) = v58 (ix2 r 0) := by
  unfold k0_pay2
  refine (shapeCast_apply _ _ (ix3 0 0 r) (ix2 0 r) ?_).trans ?_
  · rw [Shape.rowMajor_val_two, Shape.rowMajor_val_three]
    show 0 * 2048 + r.val = (0 * 1 + 0) * 2048 + r.val
    omega
  refine transpose_apply _ v58 _ (ix2 0 r) (ix2 r 0) fun b => ?_
  match b with
  | ⟨0, _⟩ => rfl
  | ⟨1, _⟩ => rfl

/-- The column output payload adds a unit axis to the row of column minima: entry `q` is the accumulator's lane `q`. -/
theorem colOut_at (v58 : Vec Ideal S1x4096 .f32) (q : Fin 4096) : k0_pay3 v58 (ix3 0 0 q) = v58 (ix2 0 q) := by
  unfold k0_pay3
  refine shapeCast_apply _ _ (ix3 0 0 q) (ix2 0 q) ?_
  rw [Shape.rowMajor_val_two, Shape.rowMajor_val_three]
  show 0 * 4096 + q.val = (0 * 1 + 0) * 4096 + q.val
  omega

end Cert.KernelIdeal.Values

end
-- ==== Proof.KernelInv.lean ====
/-
  What the kernel's two accumulators hold after every grid point, and what its two output blocks hold at the points
  that write them back.

  The grid is (batch element, row block, column chunk) = 16 x 2 x 4, the column chunk moving fastest: point `t` is batch
  element `t / 8`, row block `t / 4 % 2` (2048 rows each), column chunk `t % 4` (1024 lanes each). Writing `D b p q` for
  the squared distance of point `p` of the first cloud and point `q` of the second in batch element `b`:

  * after point `t` the row accumulator holds, at row `r`, the running minimum over the column chunks seen so far in
    this row block of the chunk minima of `D b (row block * 2048 + r) ·`;
  * the column accumulator holds, at lane `q`, the running minimum over row blocks of the block minima of `D b · q`,
    advanced to the current row block on the chunks already visited in it and still at the previous row block on the
    others.

  Both are proved by induction on the point, one step lemma for an accumulator that is reset at the point and one for
  an accumulator that carries on. At the last column chunk the row accumulator has seen all four chunks, so its output
  block is the minimum over all 4096 columns; at the last point of a batch element the column accumulator has seen both
  row blocks on every lane.
-/
import proofs.«155151_j25074019074268_2_alg».proof.Proof.KernelPieces
import proofs.«155151_j25074019074268_2_alg».proof.Proof.KernelValues

noncomputable section

open Idealize.ShloMosaic Idealize.ShloMosaic.TcCoe Idealize.SL.Sem Idealize.ShloMosaic.ValueIdx
open Idealize.ShloMosaic.Pipeline (Dat)

namespace Cert.KernelIdeal.Inv

open Cert.KernelIdeal Cert.KernelIdeal.Gen Cert.KernelIdeal.Pieces Cert.KernelIdeal.Values

variable (m : (ℓ : Loc nD τ sig) → Buf (Elt Ideal) ℓ)

/-! ## The grid's arithmetic, decided once -/

theorem idx_in0 : ∀ t : Fin cfg0.N, win0_0.index t (0 : Fin 3) = t.val / 8 ∧ win0_0.index t (1 : Fin 3) = t.val / 4 % 2
    ∧ win0_0.index t (2 : Fin 3) = 0 :=
  (by decide +kernel : ∀ t : Fin grid0.N, win0_0.index t (0 : Fin 3) = t.val / 8 ∧ win0_0.index t (1 : Fin 3) = t.val / 4 % 2
    ∧ win0_0.index t (2 : Fin 3) = 0)

theorem idx_in1 : ∀ t : Fin cfg0.N, win0_1.index t (0 : Fin 3) = t.val / 8 ∧ win0_1.index t (1 : Fin 3) = 0
    ∧ win0_1.index t (2 : Fin 3) = t.val % 4 :=
  (by decide +kernel : ∀ t : Fin grid0.N, win0_1.index t (0 : Fin 3) = t.val / 8 ∧ win0_1.index t (1 : Fin 3) = 0
    ∧ win0_1.index t (2 : Fin 3) = t.val % 4)

/-- The column accumulator's chunk at point `t` starts at lane `t % 4 * 1024`. -/
theorem chunk_off : ∀ t : Fin cfg0.N, k0_off1 (grid0.coords t) = ![0, t.val % 4 * 1024] :=
  (by decide +kernel : ∀ t : Fin grid0.N, k0_off1 (grid0.coords t) = ![0, t.val % 4 * 1024])

theorem two_blocks : 2 * 2048 = 4096 := by norm_num
theorem four_chunks : 4 * 1024 = 4096 := by norm_num

/-! ## The two clouds and their squared distances -/

/-- Coordinate `d` of point `p` of the first cloud in batch element `b`, as the region finds it. -/
def X (c : Dev nD) (b : Fin 16) (p : Fin 4096) (d : Fin 3) : EReal :=
  (V m c main_arg0 : S16x4096x3.Idx → Ideal .f32) (ix3 b p d)

/-- Coordinate `d` of point `q` of the second cloud (handed to the kernel coordinate-major). -/
def Y (c : Dev nD) (b : Fin 16) (q : Fin 4096) (d : Fin 3) : EReal :=
  (V m c main_v0 : S16x3x4096.Idx → Ideal .f32) (ix3 b d q)

/-- The squared distance of point `p` of the first cloud and point `q` of the second, in the difference form. -/
def D (c : Dev nD) (b : Fin 16) (p q : Fin 4096) : EReal :=
  Chamfer.dDiff (X m c b p 0) (X m c b p 1) (X m c b p 2) (Y m c b q 0) (Y m c b q 1) (Y m c b q 2)

/-- The minimum over column chunk `k` of row `p`'s distances. -/
def rowTile (c : Dev nD) (b : Fin 16) (p : Fin 4096) : Fin 4 → EReal := fun k =>
  (Finset.univ : Finset (Fin 1024)).fold min ⊤ fun l => D m c b p (KnnMin.pos four_chunks k l)

/-- The minimum over row block `k` of column `q`'s distances. -/
def colTile (c : Dev nD) (b : Fin 16) (q : Fin 4096) : Fin 2 → EReal := fun k =>
  (Finset.univ : Finset (Fin 2048)).fold min ⊤ fun r => D m c b (KnnMin.pos two_blocks k r) q

/-! ## The blocks the body is handed -/

theorem blk0_at (c : Dev nD) (t : Fin cfg0.N) (r : Fin 2048) (d : Fin 3) (b : Fin 16) (p : Fin 4096)
    (hb : b.val = t.val / 8) (hp : p.val = t.val / 4 % 2 * 2048 + r.val) :
    (iblk m c 0 t : Vec Ideal S1x2048x3 .f32) (ix3 0 r d) = X m c b p d := by
  obtain ⟨h0, h1, h2⟩ := idx_in0 t
  unfold iblk X
  rw [View.read_apply]
  show V m c main_arg0 _ = V m c main_arg0 _
  congr 1
  funext a
  apply Fin.ext
  match a with
  | ⟨0, _⟩ => show win0_0.index t 0 * 1 + 1 * 0 = b.val; rw [h0]; omega
  | ⟨1, _⟩ => show win0_0.index t 1 * 2048 + 1 * r.val = p.val; rw [h1]; omega
  | ⟨2, _⟩ => show win0_0.index t 2 * 3 + 1 * d.val = d.val; rw [h2]; omega

theorem blk1_at (c : Dev nD) (t : Fin cfg0.N) (l : Fin 1024) (d : Fin 3) (b : Fin 16) (q : Fin 4096)
    (hb : b.val = t.val / 8) (hq : q.val = t.val % 4 * 1024 + l.val) :
    (iblk m c 1 t : Vec Ideal S1x3x1024 .f32) (ix3 0 d l) = Y m c b q d := by
  obtain ⟨h0, h1, h2⟩ := idx_in1 t
  unfold iblk Y
  rw [View.read_apply]
  show V m c main_v0 _ = V m c main_v0 _
  congr 1
  funext a
  apply Fin.ext
  match a with
  | ⟨0, _⟩ => show win0_1.index t 0 * 1 + 1 * 0 = b.val; rw [h0]; omega
  | ⟨1, _⟩ => show win0_1.index t 1 * 3 + 1 * d.val = d.val; rw [h1]; omega
  | ⟨2, _⟩ => show win0_1.index t 2 * 1024 + 1 * l.val = q.val; rw [h2]; omega

/-- The tile of point `t` at (r, l) is the squared distance of the cloud points its blocks hold there. -/
theorem tile_pt (c : Dev nD) (t : Fin cfg0.N) (r : Fin 2048) (l : Fin 1024) (b : Fin 16) (p q : Fin 4096)
    (hb : b.val = t.val / 8) (hp : p.val = t.val / 4 % 2 * 2048 + r.val) (hq : q.val = t.val % 4 * 1024 + l.val) :
    k0_pay6 (iblk m c 0 t) (iblk m c 1 t) (ix2 r l) = D m c b p q := by
  refine (tile_at (iblk m c 0 t) (iblk m c 1 t) r l).trans ?_
  unfold D
  rw [blk0_at m c t r 0 b p hb hp, blk0_at m c t r 1 b p hb hp, blk0_at m c t r 2 b p hb hp,
    blk1_at m c t l 0 b q hb hq, blk1_at m c t l 1 b q hb hq, blk1_at m c t l 2 b q hb hq]

/-! ## The column accumulator's store, read at a lane -/

/-- On the chunk's lanes the column accumulator takes the smaller of what it held and the tile's column minimum. -/
theorem colStep_hit (i : grid0.Coords) (v31 : FVec Ideal S2048x1024 .f32) (xs1 : Vec Ideal S1x4096 .f32) (o : ℕ)
    (ho : k0_off1 i = ![0, o]) (q : Fin 4096) (l : Fin 1024) (hq : q.val = o + l.val) :
    colStep i v31 xs1 (ix2 0 q)
      = min (xs1 (ix2 0 q)) ((Finset.univ : Finset (Fin 2048)).fold min ⊤ fun r => v31 (ix2 r l)) := by
  have h : ∀ a, k0_off1 i a ≤ ((ix2 0 q : S1x4096.Idx) a).val
      ∧ ((ix2 0 q : S1x4096.Idx) a).val < k0_off1 i a + S1x1024.size a := by
    intro a
    rw [ho]
    match a with
    | ⟨0, _⟩ => exact ⟨Nat.le_refl 0, Nat.one_pos⟩
    | ⟨1, _⟩ => show o ≤ q.val ∧ q.val < o + 1024; have := l.isLt; omega
  unfold colStep
  rw [dif_pos h]
  have e : Rect.unitLocal (s := S1x4096) (off := k0_off1 i) (size := S1x1024.size) (ix2 0 q) h = ix2 0 l :=
    funext fun a => Fin.ext (by
      rw [Rect.unitLocal_val, congrFun ho a]
      match a with
      | ⟨0, _⟩ => rfl
      | ⟨1, _⟩ => show q.val - o = l.val; omega)
  rw [e]
  refine (colPayload_at v31 _ l).trans ?_
  refine congrArg (min · _) ?_
  show xs1 _ = xs1 _
  refine congrArg xs1 (funext fun a => Fin.ext ?_)
  show k0_off1 i a + 1 * ((ix2 0 l : S1x1024.Idx) a).val = ((ix2 0 q : S1x4096.Idx) a).val
  rw [congrFun ho a]
  match a with
  | ⟨0, _⟩ => rfl
  | ⟨1, _⟩ => show o + 1 * l.val = q.val; omega

/-- Off the chunk's lanes the column accumulator keeps what it held. -/
theorem colStep_miss (i : grid0.Coords) (v31 : FVec Ideal S2048x1024 .f32) (xs1 : Vec Ideal S1x4096 .f32) (o : ℕ)
    (ho : k0_off1 i = ![0, o]) (q : Fin 4096) (hq : q.val < o ∨ o + 1024 ≤ q.val) :
    colStep i v31 xs1 (ix2 0 q) = xs1 (ix2 0 q) := by
  unfold colStep
  rw [dif_neg]
  intro h
  have h1 := h (1 : Fin 2)
  rw [congrFun ho (1 : Fin 2)] at h1
  have h1' : o ≤ q.val ∧ q.val < o + 1024 := h1
  omega

/-! ## The accumulators after each point -/

/-- After point `n` the row accumulator holds, at row `r`, the running minimum over the column chunks up to the
    point's own. -/
def RowInv (c : Dev nD) (n : ℕ) (h : n < cfg0.N) : Prop :=
  ∀ (b : Fin 16) (ni : Fin 2) (r : Fin 2048), b.val = n / 8 → ni.val = n / 4 % 2 →
    (outsAt0 m c n h).2.2.1 (ix2 r 0) = KnnMin.runMin 4 (rowTile m c b (KnnMin.pos two_blocks ni r)) (n % 4 + 1)

/-- After point `n` the column accumulator holds, at lane `q`, the running minimum over the row blocks: up to the
    point's own on the chunks visited in it, up to the one before on the others. -/
def ColInv (c : Dev nD) (n : ℕ) (h : n < cfg0.N) : Prop :=
  ∀ (b : Fin 16) (q : Fin 4096), b.val = n / 8 →
    (outsAt0 m c n h).2.2.2 (ix2 0 q)
      = KnnMin.runMin 2 (colTile m c b q) (if q.val / 1024 ≤ n % 4 then n / 4 % 2 + 1 else n / 4 % 2)

/-- The tile's row minimum at a point is the row's chunk minimum. -/
theorem rowTile_pt (c : Dev nD) (t : Fin cfg0.N) (b : Fin 16) (ni : Fin 2) (r : Fin 2048) (k : Fin 4)
    (hb : b.val = t.val / 8) (hni : ni.val = t.val / 4 % 2) (hk : k.val = t.val % 4) :
    ((Finset.univ : Finset (Fin 1024)).fold min ⊤ fun l => k0_pay6 (iblk m c 0 t) (iblk m c 1 t) (ix2 r l))
      = rowTile m c b (KnnMin.pos two_blocks ni r) k := by
  unfold rowTile
  refine congrArg (fun f => Finset.fold min ⊤ f (Finset.univ : Finset (Fin 1024))) (funext fun l => ?_)
  exact tile_pt m c t r l b _ _ hb (by show ni.val * 2048 + r.val = _; rw [hni]) (by show k.val * 1024 + l.val = _; rw [hk])

/-- The tile's column minimum at a point is the column's block minimum. -/
theorem colTile_pt (c : Dev nD) (t : Fin cfg0.N) (b : Fin 16) (q : Fin 4096) (l : Fin 1024) (k : Fin 2)
    (hb : b.val = t.val / 8) (hk : k.val = t.val / 4 % 2) (hq : q.val = t.val % 4 * 1024 + l.val) :
    ((Finset.univ : Finset (Fin 2048)).fold min ⊤ fun r => k0_pay6 (iblk m c 0 t) (iblk m c 1 t) (ix2 r l))
      = colTile m c b q k := by
  unfold colTile
  refine congrArg (fun f => Finset.fold min ⊤ f (Finset.univ : Finset (Fin 2048))) (funext fun r => ?_)
  exact tile_pt m c t r l b _ q hb (by show k.val * 2048 + r.val = _; rw [hk]) hq

/-- A point that resets the row accumulator (the first column chunk) leaves the first chunk's minimum. -/
theorem row_reset (c : Dev nD) (t : Fin cfg0.N) (h0 : t.val % 4 = 0)
    (hrow : (outsAt0 m c t.val t.isLt).2.2.1 = k0_pay7 (iblk m c 0 t) (iblk m c 1 t) (k0_pay4 (F := Ideal))) :
    RowInv m c t.val t.isLt := by
  intro b ni r hb hni
  rw [hrow]
  refine (rowPayload_at (iblk m c 0 t) (iblk m c 1 t) (k0_pay4 (F := Ideal)) r).trans ?_
  rw [rowReset_at, rowTile_pt m c t b ni r ⟨0, by norm_num⟩ hb hni h0.symm, h0]
  exact (Chamfer.runMin_succ 4 _ 0 (by norm_num)).symm

/-- A point that carries the row accumulator on folds its own chunk's minimum in. -/
theorem row_carry (c : Dev nD) (t : Fin cfg0.N) (h0 : t.val % 4 ≠ 0)
    (hrow : (outsAt0 m c t.val t.isLt).2.2.1 = k0_pay7 (iblk m c 0 t) (iblk m c 1 t)
      (outsAt0 m c (t.val - 1) (Nat.lt_of_le_of_lt (Nat.sub_le _ _) t.isLt)).2.2.1)
    (ih : RowInv m c (t.val - 1) (Nat.lt_of_le_of_lt (Nat.sub_le _ _) t.isLt)) :
    RowInv m c t.val t.isLt := by
  intro b ni r hb hni
  rw [hrow]
  refine (rowPayload_at (iblk m c 0 t) (iblk m c 1 t) _ r).trans ?_
  have hk : t.val % 4 < 4 := Nat.mod_lt _ (by norm_num)
  rw [ih b ni r (by omega) (by omega), rowTile_pt m c t b ni r ⟨t.val % 4, hk⟩ hb hni rfl,
    show (t.val - 1) % 4 + 1 = t.val % 4 by omega]
  exact (Chamfer.runMin_succ 4 _ (t.val % 4) hk).symm

/-- The first point of a batch element resets the column accumulator and folds the first row block in on its chunk. -/
theorem col_reset (c : Dev nD) (t : Fin cfg0.N) (h1 : t.val % 8 = 0)
    (hcol : (outsAt0 m c t.val t.isLt).2.2.2 = colStep (grid0.coords t) (k0_pay6 (iblk m c 0 t) (iblk m c 1 t)) (k0_pay5 (F := Ideal))) :
    ColInv m c t.val t.isLt := by
  intro b q hb
  rw [hcol]
  have hq := q.isLt
  by_cases hc : q.val / 1024 = 0
  · rw [colStep_hit (grid0.coords t) _ _ (t.val % 4 * 1024) (chunk_off t) q ⟨q.val % 1024, Nat.mod_lt _ (by norm_num)⟩
      (by show q.val = t.val % 4 * 1024 + q.val % 1024; omega)]
    rw [colReset_at, colTile_pt m c t b q ⟨q.val % 1024, Nat.mod_lt _ (by norm_num)⟩ ⟨0, by norm_num⟩ hb
      (by show 0 = t.val / 4 % 2; omega) (by show q.val = t.val % 4 * 1024 + q.val % 1024; omega)]
    rw [if_pos (by omega), show t.val / 4 % 2 + 1 = 0 + 1 by omega]
    exact (Chamfer.runMin_succ 2 _ 0 (by norm_num)).symm
  · rw [colStep_miss (grid0.coords t) _ _ (t.val % 4 * 1024) (chunk_off t) q (by omega), colReset_at,
      if_neg (by omega), show t.val / 4 % 2 = 0 by omega]
    rfl

/-- Any other point folds its row block in on its chunk and leaves the other lanes. -/
theorem col_carry (c : Dev nD) (t : Fin cfg0.N) (h1 : t.val % 8 ≠ 0)
    (hcol : (outsAt0 m c t.val t.isLt).2.2.2 = colStep (grid0.coords t) (k0_pay6 (iblk m c 0 t) (iblk m c 1 t))
      (outsAt0 m c (t.val - 1) (Nat.lt_of_le_of_lt (Nat.sub_le _ _) t.isLt)).2.2.2)
    (ih : ColInv m c (t.val - 1) (Nat.lt_of_le_of_lt (Nat.sub_le _ _) t.isLt)) :
    ColInv m c t.val t.isLt := by
  intro b q hb
  rw [hcol]
  have hq := q.isLt
  have hni : t.val / 4 % 2 < 2 := Nat.mod_lt _ (by norm_num)
  by_cases hc : q.val / 1024 = t.val % 4
  · rw [colStep_hit (grid0.coords t) _ _ (t.val % 4 * 1024) (chunk_off t) q ⟨q.val % 1024, Nat.mod_lt _ (by norm_num)⟩
      (by show q.val = t.val % 4 * 1024 + q.val % 1024; omega)]
    rw [ih b q (by omega), colTile_pt m c t b q ⟨q.val % 1024, Nat.mod_lt _ (by norm_num)⟩ ⟨t.val / 4 % 2, hni⟩ hb rfl
      (by show q.val = t.val % 4 * 1024 + q.val % 1024; omega)]
    rw [show (if q.val / 1024 ≤ (t.val - 1) % 4 then (t.val - 1) / 4 % 2 + 1 else (t.val - 1) / 4 % 2) = t.val / 4 % 2 by
        split <;> omega, if_pos (by omega)]
    exact (Chamfer.runMin_succ 2 _ (t.val / 4 % 2) hni).symm
  · rw [colStep_miss (grid0.coords t) _ _ (t.val % 4 * 1024) (chunk_off t) q (by omega), ih b q (by omega)]
    refine congrArg (KnnMin.runMin 2 (colTile m c b q)) ?_
    split <;> split <;> omega

/-! ## The five kinds of point -/

/-- The first point of a batch element: both accumulators are reset. -/
theorem stepA (c : Dev nD) (t : Fin cfg0.N) (h0 : t.val % 4 = 0) (h1 : t.val % 8 = 0) (h2 : ¬t.val % 4 = 3) (h3 : ¬t.val % 8 = 7)
     :
    RowInv m c t.val t.isLt ∧ ColInv m c t.val t.isLt := by
  have e := outsAt0_A m c t h0 h1 h2 h3
  refine ⟨row_reset m c t h0 ?_, col_reset m c t h1 ?_⟩
  · rw [e]
    dsimp only
    exact rowAcc_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)
  · rw [e]
    dsimp only
    exact colAcc_A c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) ((hcond0_1 t).mpr h1) (fun h => h2 ((hcond0_2 t).mp h)) (fun h => h3 ((hcond0_3 t).mp h)) (iblk m c 0 t) (iblk m c 1 t)

/-- A point inside a row block's sweep: both accumulators carry on. -/
theorem stepB (c : Dev nD) (t : Fin cfg0.N) (h0 : ¬t.val % 4 = 0) (h1 : ¬t.val % 8 = 0) (h2 : ¬t.val % 4 = 3) (h3 : ¬t.val % 8 = 7)
    (ih : RowInv m c (t.val - 1) (Nat.lt_of_le_of_lt (Nat.sub_le _ _) t.isLt) ∧ ColInv m c (t.val - 1) (Nat.lt_of_le_of_lt (Nat.sub_le _ _) t.isLt)) :
    RowInv m c t.val t.isLt ∧ ColInv m c t.val t.isLt := by
  have e := outsAt0_B m c t h0 h1 h2 h3
  refine ⟨row_carry m c t h0 ?_ ih.1, col_carry m c t h1 ?_ ih.2⟩
  · rw [e]
    dsimp only
    exact rowAcc_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [e]
    dsimp only
    exact colAcc_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The last column chunk of the first row block: both accumulators carry on. -/
theorem stepC (c : Dev nD) (t : Fin cfg0.N) (h0 : ¬t.val % 4 = 0) (h1 : ¬t.val % 8 = 0) (h2 : t.val % 4 = 3) (h3 : ¬t.val % 8 = 7)
    (ih : RowInv m c (t.val - 1) (Nat.lt_of_le_of_lt (Nat.sub_le _ _) t.isLt) ∧ ColInv m c (t.val - 1) (Nat.lt_of_le_of_lt (Nat.sub_le _ _) t.isLt)) :
    RowInv m c t.val t.isLt ∧ ColInv m c t.val t.isLt := by
  have e := outsAt0_C m c t h0 h1 h2 h3
  refine ⟨row_carry m c t h0 ?_ ih.1, col_carry m c t h1 ?_ ih.2⟩
  · rw [e]
    dsimp only
    exact rowAcc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [e]
    dsimp only
    exact colAcc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The first column chunk of the second row block: the row accumulator is reset, the column accumulator carries on. -/
theorem stepD (c : Dev nD) (t : Fin cfg0.N) (h0 : t.val % 4 = 0) (h1 : ¬t.val % 8 = 0) (h2 : ¬t.val % 4 = 3) (h3 : ¬t.val % 8 = 7)
    (ih : RowInv m c (t.val - 1) (Nat.lt_of_le_of_lt (Nat.sub_le _ _) t.isLt) ∧ ColInv m c (t.val - 1) (Nat.lt_of_le_of_lt (Nat.sub_le _ _) t.isLt)) :
    RowInv m c t.val t.isLt ∧ ColInv m c t.val t.isLt := by
  have e := outsAt0_D m c t h0 h1 h2 h3
  refine ⟨row_reset m c t h0 ?_, col_carry m c t h1 ?_ ih.2⟩
  · rw [e]
    dsimp only
    exact rowAcc_D c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2
  · rw [e]
    dsimp only
    exact colAcc_D c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.2

/-- The last point of a batch element: both accumulators carry on. -/
theorem stepE (c : Dev nD) (t : Fin cfg0.N) (h0 : ¬t.val % 4 = 0) (h1 : ¬t.val % 8 = 0) (h2 : t.val % 4 = 3) (h3 : t.val % 8 = 7)
    (ih : RowInv m c (t.val - 1) (Nat.lt_of_le_of_lt (Nat.sub_le _ _) t.isLt) ∧ ColInv m c (t.val - 1) (Nat.lt_of_le_of_lt (Nat.sub_le _ _) t.isLt)) :
    RowInv m c t.val t.isLt ∧ ColInv m c t.val t.isLt := by
  have e := outsAt0_E m c t h0 h1 h2 h3
  refine ⟨row_carry m c t h0 ?_ ih.1, col_carry m c t h1 ?_ ih.2⟩
  · rw [e]
    dsimp only
    exact rowAcc_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2
  · rw [e]
    dsimp only
    exact colAcc_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- After every point both accumulators hold their running minima: by induction on the point. -/
theorem inv (c : Dev nD) : ∀ (n : ℕ) (h : n < cfg0.N), RowInv m c n h ∧ ColInv m c n h
  | 0, h => stepA m c ⟨0, h⟩ rfl rfl (by show ¬0 % 4 = 3; omega) (by show ¬0 % 8 = 7; omega)
  | n + 1, h => by
    have ih := inv c n (Nat.lt_of_succ_lt h)
    by_cases h0 : (n + 1) % 4 = 0
    · by_cases h1 : (n + 1) % 8 = 0
      · exact stepA m c ⟨n + 1, h⟩ h0 h1 (by show ¬(n + 1) % 4 = 3; omega) (by show ¬(n + 1) % 8 = 7; omega)
      · exact stepD m c ⟨n + 1, h⟩ h0 h1 (by show ¬(n + 1) % 4 = 3; omega) (by show ¬(n + 1) % 8 = 7; omega) ih
    · have h1 : ¬(n + 1) % 8 = 0 := by omega
      by_cases h2 : (n + 1) % 4 = 3
      · by_cases h3 : (n + 1) % 8 = 7
        · exact stepE m c ⟨n + 1, h⟩ h0 h1 h2 h3 ih
        · exact stepC m c ⟨n + 1, h⟩ h0 h1 h2 h3 ih
      · exact stepB m c ⟨n + 1, h⟩ h0 h1 h2 (by show ¬(n + 1) % 8 = 7; omega) ih

/-! ## The output blocks at the points that write them back -/

/-- At the last column chunk the row output block is the row accumulator re-laid. -/
theorem rowOut_eq (c : Dev nD) (t : Fin cfg0.N) (h2 : t.val % 4 = 3) :
    (outsAt0 m c t.val t.isLt).1 = k0_pay2 (outsAt0 m c t.val t.isLt).2.2.1 := by
  have h0 : ¬t.val % 4 = 0 := by omega
  have h1 : ¬t.val % 8 = 0 := by omega
  by_cases h3 : t.val % 8 = 7
  · rw [outsAt0_E m c t h0 h1 h2 h3]
    dsimp only
    rw [rowOut_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, rowAcc_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]
  · rw [outsAt0_C m c t h0 h1 h2 h3]
    dsimp only
    rw [rowOut_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, rowAcc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]

/-- At the last point of a batch element the column output block is the column accumulator with a unit axis added. -/
theorem colOut_eq (c : Dev nD) (t : Fin cfg0.N) (h3 : t.val % 8 = 7) :
    (outsAt0 m c t.val t.isLt).2.1 = k0_pay3 (outsAt0 m c t.val t.isLt).2.2.2 := by
  have h0 : ¬t.val % 4 = 0 := by omega
  have h1 : ¬t.val % 8 = 0 := by omega
  have h2 : t.val % 4 = 3 := by omega
  rw [outsAt0_E m c t h0 h1 h2 h3]
  dsimp only
  rw [colOut_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2, colAcc_E c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2]

/-- So the row output block written back at a last column chunk holds, at row `r`, the minimum over all 4096 points of
    the second cloud. -/
theorem rowOut_min (c : Dev nD) (t : Fin cfg0.N) (h2 : t.val % 4 = 3) (b : Fin 16) (ni : Fin 2) (r : Fin 2048)
    (hb : b.val = t.val / 8) (hni : ni.val = t.val / 4 % 2) :
    (outsAt0 m c t.val t.isLt).1 (ix3 0 0 r)
      = (Finset.univ : Finset (Fin 4096)).fold min ⊤ fun q => D m c b (KnnMin.pos two_blocks ni r) q := by
  rw [rowOut_eq m c t h2]
  refine (rowOut_at _ r).trans ?_
  rw [(inv m c t.val t.isLt).1 b ni r hb hni, h2]
  show KnnMin.runMin 4 _ 4 = _
  rw [KnnMin.runMin_all]
  exact KnnMin.min_chunks four_chunks fun q => D m c b (KnnMin.pos two_blocks ni r) q

/-- And the column output block written back at the last point of a batch element holds, at lane `q`, the minimum over
    all 4096 points of the first cloud. -/
theorem colOut_min (c : Dev nD) (t : Fin cfg0.N) (h3 : t.val % 8 = 7) (b : Fin 16) (q : Fin 4096) (hb : b.val = t.val / 8) :
    (outsAt0 m c t.val t.isLt).2.1 (ix3 0 0 q)
      = (Finset.univ : Finset (Fin 4096)).fold min ⊤ fun p => D m c b p q := by
  rw [colOut_eq m c t h3]
  refine (colOut_at _ q).trans ?_
  have hq := q.isLt
  rw [(inv m c t.val t.isLt).2 b q hb, if_pos (by omega), show t.val / 4 % 2 + 1 = 2 by omega]
  rw [KnnMin.runMin_all]
  exact KnnMin.min_chunks two_blocks fun p => D m c b p q

end Cert.KernelIdeal.Inv

end
-- ==== Proof.KernelArrays.lean ====
/-
  The kernel's two output arrays after the run, and the scalar its trailing host operations make of them.

  The row output array `[16, 1, 4096]` is written back one block of 2048 rows at the last column chunk of each row
  block: point `t` with `t % 4 = 3` writes batch element `t / 8`, rows `t / 4 % 2 * 2048 ..`. The column output array is
  written back whole per batch element at the element's last point (`t % 8 = 7`). Each written block is the block of ONE
  array-wide function (the minimum over the other cloud), and the blocks cover the arrays, so the arrays end holding
  those functions. The trailing host operations sum each array from the zero word, add the two sums and divide by 16.
-/
import proofs.«155151_j25074019074268_2_alg».proof.Proof.KernelInv
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Inv

variable (m : (ℓ : Loc nD τ sig) → Buf (Elt Ideal) ℓ) (ρ : Dev nD → PrngReg)

/-! ## The grid's arithmetic for the two output windows -/

theorem idx_out2 : ∀ t : Fin cfg0.N, win0_2.index t (0 : Fin 3) = t.val / 8 ∧ win0_2.index t (1 : Fin 3) = 0
    ∧ win0_2.index t (2 : Fin 3) = t.val / 4 % 2 :=
  (by decide +kernel : ∀ t : Fin grid0.N, win0_2.index t (0 : Fin 3) = t.val / 8 ∧ win0_2.index t (1 : Fin 3) = 0
    ∧ win0_2.index t (2 : Fin 3) = t.val / 4 % 2)

theorem idx_out3 : ∀ t : Fin cfg0.N, win0_3.index t (0 : Fin 3) = t.val / 8 ∧ win0_3.index t (1 : Fin 3) = 0
    ∧ win0_3.index t (2 : Fin 3) = 0 :=
  (by decide +kernel : ∀ t : Fin grid0.N, win0_3.index t (0 : Fin 3) = t.val / 8 ∧ win0_3.index t (1 : Fin 3) = 0
    ∧ win0_3.index t (2 : Fin 3) = 0)

/-! ## The two array-wide functions -/

/-- For every point of the first cloud, the smallest squared distance to the second cloud. -/
def rowMins (c : Dev nD) : S16x1x4096.Idx → Ideal .f32 := fun i =>
  (Finset.univ : Finset (Fin 4096)).fold min ⊤ fun q => D m c (i 0) (i 2) q

/-- For every point of the second cloud, the smallest squared distance to the first cloud. -/
def colMins (c : Dev nD) : S16x1x4096.Idx → Ideal .f32 := fun i =>
  (Finset.univ : Finset (Fin 4096)).fold min ⊤ fun p => D m c (i 0) p (i 2)

/-- The same as contents of the two result arrays. -/
abbrev rowMinsBuf (c : Dev nD) : Buf (Elt Ideal) ((c : Thread nD τ).loc main_v1_0) := rowMins m c
abbrev colMinsBuf (c : Dev nD) : Buf (Elt Ideal) ((c : Thread nD τ).loc main_v1_1) := colMins m c

theorem rowMins_at (c : Dev nD) (i : S16x1x4096.Idx) (b : Fin 16) (p : Fin 4096) (h0 : i 0 = b) (h2 : i 2 = p) :
    rowMins m c i = (Finset.univ : Finset (Fin 4096)).fold min ⊤ fun q => D m c b p q := by
  subst h0 h2; rfl

theorem colMins_at (c : Dev nD) (i : S16x1x4096.Idx) (b : Fin 16) (q : Fin 4096) (h0 : i 0 = b) (h2 : i 2 = q) :
    colMins m c i = (Finset.univ : Finset (Fin 4096)).fold min ⊤ fun p => D m c b p q := by
  subst h0 h2; rfl

theorem eq_unit3 {n : ℕ} (y : (⟨3, ![1, 1, n]⟩ : Shape).Idx) : y = ix3 0 0 (y 2) := by
  funext a
  match a with
  | ⟨0, _⟩ => exact Subsingleton.elim (α := Fin 1) _ _
  | ⟨1, _⟩ => exact Subsingleton.elim (α := Fin 1) _ _
  | ⟨2, _⟩ => rfl

/-! ## What the write-backs write -/

/-- A write-back of the row output block writes the block of `rowMins`. -/
theorem flushed_row (c : Dev nD) (t : Fin cfg0.N) (hf : (cfg0.win 2).flush t = true) :
    (dats m 0 c).flushed 2 t = ((cfg0.win 2).blk t).view.read (Elt Ideal) (rowMinsBuf m c) := by
  have h2 : t.val % 4 = 3 := (flush0_2 t).mp hf
  have hN : t.val < 128 := lt_of_lt_of_eq t.isLt N_0
  obtain ⟨i0, i1, i2⟩ := idx_out2 t
  show (cfg0.win 2).cut (grid0.coords t) ((dats m 0 c).after 2 t) = _
  rw [after0_2]
  have key : ∀ y : S1x1x2048.Idx, (outsAt0 m c t.val t.isLt).1 y
      = ((cfg0.win 2).blk t).view.read (Elt Ideal) (rowMinsBuf m c) y := by
    intro y
    obtain ⟨r, rfl⟩ : ∃ r : Fin 2048, y = ix3 0 0 r := ⟨y 2, eq_unit3 y⟩
    rw [rowOut_min m c t h2 ⟨t.val / 8, by omega⟩ ⟨t.val / 4 % 2, by omega⟩ r rfl rfl, View.read_apply]
    show _ = rowMins m c _
    refine (rowMins_at m c _ ⟨t.val / 8, by omega⟩ (KnnMin.pos two_blocks ⟨t.val / 4 % 2, by omega⟩ r) (Fin.ext ?_) (Fin.ext ?_)).symm
    · show win0_2.index t (0 : Fin 3) * 1 + 1 * 0 = t.val / 8; rw [i0]; omega
    · show win0_2.index t (2 : Fin 3) * 2048 + 1 * r.val = t.val / 4 % 2 * 2048 + r.val; rw [i2]; omega
  exact funext key

/-- A write-back of the column output block writes the block of `colMins`. -/
theorem flushed_col (c : Dev nD) (t : Fin cfg0.N) (hf : (cfg0.win 3).flush t = true) :
    (dats m 0 c).flushed 3 t = ((cfg0.win 3).blk t).view.read (Elt Ideal) (colMinsBuf m c) := by
  have h3 : t.val % 8 = 7 := (flush0_3 t).mp hf
  have hN : t.val < 128 := lt_of_lt_of_eq t.isLt N_0
  obtain ⟨i0, i1, i2⟩ := idx_out3 t
  show (cfg0.win 3).cut (grid0.coords t) ((dats m 0 c).after 3 t) = _
  rw [after0_3]
  have key : ∀ y : S1x1x4096.Idx, (outsAt0 m c t.val t.isLt).2.1 y
      = ((cfg0.win 3).blk t).view.read (Elt Ideal) (colMinsBuf m c) y := by
    intro y
    obtain ⟨q, rfl⟩ : ∃ q : Fin 4096, y = ix3 0 0 q := ⟨y 2, eq_unit3 y⟩
    rw [colOut_min m c t h3 ⟨t.val / 8, by omega⟩ q rfl, View.read_apply]
    show _ = colMins m c _
    refine (colMins_at m c _ ⟨t.val / 8, by omega⟩ q (Fin.ext ?_) (Fin.ext ?_)).symm
    · show win0_3.index t (0 : Fin 3) * 1 + 1 * 0 = t.val / 8; rw [i0]; omega
    · show win0_3.index t (2 : Fin 3) * 4096 + 1 * q.val = q.val; rw [i2]; omega
  exact funext key

/-! ## The write-backs cover the arrays -/

theorem mem_blk_row (t : Fin cfg0.N) (i : S16x1x4096.Idx) :
    i ∈ ((cfg0.win 2).blk t).view.set ↔ ∀ a : Fin 3, win0_2.index t a * S1x1x2048.size a ≤ (i a).val
      ∧ (i a).val < win0_2.index t a * S1x1x2048.size a + S1x1x2048.size a := by
  show i ∈ ((View.whole main_v1_0).slice (win0_2.rect t)).set ↔ _
  rw [View.set_slice_whole, Rect.mem_set_unit]
  exact Iff.rfl

theorem mem_blk_col (t : Fin cfg0.N) (i : S16x1x4096.Idx) :
    i ∈ ((cfg0.win 3).blk t).view.set ↔ ∀ a : Fin 3, win0_3.index t a * S1x1x4096.size a ≤ (i a).val
      ∧ (i a).val < win0_3.index t a * S1x1x4096.size a + S1x1x4096.size a := by
  show i ∈ ((View.whole main_v1_1).slice (win0_3.rect t)).set ↔ _
  rw [View.set_slice_whole, Rect.mem_set_unit]
  exact Iff.rfl

/-- The row output array ends holding `rowMins`. -/
theorem final_row (c : Dev nD) : (dats m 0 c).arrAt 2 cfg0.N = rowMinsBuf m c :=
  (dats m 0 c).arrAt_eq_of_cover 2 (rowMinsBuf m c) (flushed_row m c) fun i => by
    have h0 : (i 0).val < 16 := (i 0).isLt
    have h1 : (i 1).val < 1 := (i 1).isLt
    have h2 : (i 2).val < 4096 := (i 2).isLt
    have hN : cfg0.N = 128 := N_0
    let t : Fin cfg0.N := ⟨(i 0).val * 8 + (i 2).val / 2048 * 4 + 3, by rw [hN]; omega⟩
    have ht : t.val = (i 0).val * 8 + (i 2).val / 2048 * 4 + 3 := rfl
    obtain ⟨e0, e1, e2⟩ := idx_out2 t
    refine ⟨t, (flush0_2 t).mpr (by rw [ht]; omega), ?_⟩
    rw [mem_blk_row]
    intro a
    match a with
    | ⟨0, _⟩ => show win0_2.index t (0 : Fin 3) * 1 ≤ (i 0).val ∧ (i 0).val < win0_2.index t (0 : Fin 3) * 1 + 1
                rw [e0, ht]; omega
    | ⟨1, _⟩ => show win0_2.index t (1 : Fin 3) * 1 ≤ (i 1).val ∧ (i 1).val < win0_2.index t (1 : Fin 3) * 1 + 1
                rw [e1]; omega
    | ⟨2, _⟩ => show win0_2.index t (2 : Fin 3) * 2048 ≤ (i 2).val ∧ (i 2).val < win0_2.index t (2 : Fin 3) * 2048 + 2048
                rw [e2, ht]; omega

/-- The column output array ends holding `colMins`. -/
theorem final_col (c : Dev nD) : (dats m 0 c).arrAt 3 cfg0.N = colMinsBuf m c :=
  (dats m 0 c).arrAt_eq_of_cover 3 (colMinsBuf m c) (flushed_col m c) fun i => by
    have h0 : (i 0).val < 16 := (i 0).isLt
    have h1 : (i 1).val < 1 := (i 1).isLt
    have h2 : (i 2).val < 4096 := (i 2).isLt
    have hN : cfg0.N = 128 := N_0
    let t : Fin cfg0.N := ⟨(i 0).val * 8 + 7, by rw [hN]; omega⟩
    have ht : t.val = (i 0).val * 8 + 7 := rfl
    obtain ⟨e0, e1, e2⟩ := idx_out3 t
    refine ⟨t, (flush0_3 t).mpr (by rw [ht]; omega), ?_⟩
    rw [mem_blk_col]
    intro a
    match a with
    | ⟨0, _⟩ => show win0_3.index t (0 : Fin 3) * 1 ≤ (i 0).val ∧ (i 0).val < win0_3.index t (0 : Fin 3) * 1 + 1
                rw [e0, ht]; omega
    | ⟨1, _⟩ => show win0_3.index t (1 : Fin 3) * 1 ≤ (i 1).val ∧ (i 1).val < win0_3.index t (1 : Fin 3) * 1 + 1
                rw [e1]; omega
    | ⟨2, _⟩ => show win0_3.index t (2 : Fin 3) * 4096 ≤ (i 2).val ∧ (i 2).val < win0_3.index t (2 : Fin 3) * 4096 + 4096
                rw [e2]; omega

end Cert.KernelIdeal.Arrays

end
-- ==== Proof.KernelRun.lean ====
/-
  The kernel's run, read: the scalar result after the trailing host operations, and the arguments unchanged.

  After the region the two output arrays hold the two families of minima; the trailing host operations sum each from
  the zero word, add the sums and divide by the word of 16. The second cloud reaches the kernel transposed
  (coordinate-major), which is undone here, so that the result is stated over the two argument arrays.
-/
import proofs.«155151_j25074019074268_2_alg».proof.Proof.KernelArrays

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Inv Cert.KernelIdeal.Arrays

variable (m : (ℓ : Loc nD τ sig) → Buf (Elt Ideal) ℓ) (ρ : Dev nD → PrngReg)

/-- The array the kernel's second window stands on is the second argument with its last two axes exchanged. -/
theorem V_v0 (c : Dev nD) :
    (V m c main_v0 : S16x3x4096.Idx → Ideal .f32)
      = transpose S16x3x4096 [0, 2, 1] (m ((c : Thread nD τ).loc main_arg1)) Facts₀.transposes_S16x4096x3_S16x3x4096_0_2_1 := by
  dsimp only [Gen.V, Gen.V0]
  show StableHlo.after hostOps0 (fun b => m (c, b)) (Proc.devRef .tc main_v0) = _
  after_results

/-- A coordinate of the first cloud is the first argument's entry. -/
theorem X_eq (c : Dev nD) (b : Fin 16) (p : Fin 4096) (d : Fin 3) :
    X m c b p d = (m ((c : Thread nD τ).loc main_arg0) : S16x4096x3.Idx → Ideal .f32) (ix3 b p d) := by
  unfold X
  rw [V_main_arg0]

/-- A coordinate of the second cloud is the second argument's entry. -/
theorem Y_eq (c : Dev nD) (b : Fin 16) (q : Fin 4096) (d : Fin 3) :
    Y m c b q d = (m ((c : Thread nD τ).loc main_arg1) : S16x4096x3.Idx → Ideal .f32) (ix3 b q d) := by
  unfold Y
  rw [V_v0]
  exact transpose_apply _ _ _ (ix3 b d q) (ix3 b q d) fun b' => by
    match b' with
    | ⟨0, _⟩ => rfl
    | ⟨1, _⟩ => rfl
    | ⟨2, _⟩ => rfl

/-- The kernel's result: the two sums of minima, each from 0, added and divided by the word of 16. -/
def result (c : Dev nD) : Buf (Elt Ideal) ((c : Thread nD τ).loc main_v5) := fun _ =>
  Ideal.div ((0 + ∑ i : S16x1x4096.Idx, rowMins m c i) + (0 + ∑ i : S16x1x4096.Idx, colMins m c i))
    (Ideal.ofBits .f32 0x41800000#32)

/-- The trailing host operations, applied to the arrays the region leaves, give that result. -/
theorem tail_eq (c : Dev nD) : Pipeline.afterTail₀ cfgs (dats m) 0 (V0 m) [hostOps1] c main_v5 = result m c := by
  unfold Pipeline.afterTail₀
  show StableHlo.after hostOps1 _ (Proc.devRef .tc main_v5) = _
  after_results
  have e2 : Pipeline.withArrays (cfgs 0).spec c (V0 m c) (fun w => (dats m 0 c).arrAt w (cfgs 0).N)
      (Proc.devRef .tc main_v1_0) = rowMinsBuf m c :=
    (Pipeline.withArrays_arr spec0 launch0.win.arr_inj c _ _ 2).trans (final_row m c)
  have e3 : Pipeline.withArrays (cfgs 0).spec c (V0 m c) (fun w => (dats m 0 c).arrAt w (cfgs 0).N)
      (Proc.devRef .tc main_v1_1) = colMinsBuf m c :=
    (Pipeline.withArrays_arr spec0 launch0.win.arr_inj c _ _ 3).trans (final_col m c)
  rw [e2, e3]
  funext i
  simp only [Host.divf, Host.reduceAdd, addf, Ideal.hostDivf_def, Ideal.hostReduceAdd_def, Ideal.addf_def]
  rw [Ideal.hostReduceAdd_total _ (fun b => b.elim0), Ideal.hostReduceAdd_total _ (fun b => b.elim0)]
  show Ideal.div ((Ideal.ofBits .f32 0x00000000#32 + _) + (Ideal.ofBits .f32 0x00000000#32 + _)) _ = _
  rw [Cert.Consts.ofBits_zero]
  rfl

/-- The run: the result at `result`, both arguments as launched. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v5 (Pipeline.mem_restRefs_of main_v5 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Run

end
-- ==== Proof.RefSide.lean ====
/-
  The reference, read at the ideal instance.

  The reference forms the squared distance of a pair as the two squared norms added, less twice the inner product, takes
  for every point of either cloud the minimum over the other cloud, sums each family of minima from the zero word,
  multiplies each sum by 1.0, adds the two and divides by 16.
-/
import proofs.«155151_j25074019074268_2_alg».proof.Proof.Gen.ReferenceIdeal.Read
import proofs.«155151_j25074019074268_2_alg».proof.Proof.Spec
import proofs.«155151_j25074019074268_2_alg».proof.Proof.Consts
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read

/-- The reference's squared distance of point `p` of the first cloud and point `q` of the second, in its expanded form
    over the words it spells for 0 and 2. -/
def DR (x0 x1 : S16x4096x3.Idx → Ideal .f32) (b : Fin 16) (p q : Fin 4096) : EReal :=
  Chamfer.dExp (Ideal.ofBits .f32 0x00000000#32) (Ideal.ofBits .f32 0x40000000#32)
    (x0 (ix3 b p 0)) (x0 (ix3 b p 1)) (x0 (ix3 b p 2)) (x1 (ix3 b q 0)) (x1 (ix3 b q 1)) (x1 (ix3 b q 2))

theorem sqnorm0_idx (b : Fin 16) (p q : Fin 4096) (k : Fin 3) :
    idx_main_v1 (idx_main_v5 (idx_main_v7 (ix3 b p q))) k = ix3 b p k := by
  funext a
  match a with
  | ⟨0, _⟩ => rfl
  | ⟨1, _⟩ => rfl
  | ⟨2, _⟩ => rfl

theorem sqnorm1_idx (b : Fin 16) (p q : Fin 4096) (k : Fin 3) :
    idx_main_v3 (idx_main_v6 (idx_main_v8 (ix3 b p q))) k = ix3 b q k := by
  funext a
  match a with
  | ⟨0, _⟩ => rfl
  | ⟨1, _⟩ => rfl
  | ⟨2, _⟩ => rfl

theorem inner_lidx (b : Fin 16) (p q : Fin 4096) (k : Fin 3) : lidx_main_v4 (ix3 b p q) k = ix3 b p k := by
  funext a
  match a with
  | ⟨0, _⟩ => rfl
  | ⟨1, _⟩ => rfl
  | ⟨2, _⟩ => rfl

theorem inner_ridx (b : Fin 16) (p q : Fin 4096) (k : Fin 3) : ridx_main_v4 (ix3 b p q) k = ix3 b q k := by
  funext a
  match a with
  | ⟨0, _⟩ => rfl
  | ⟨1, _⟩ => rfl
  | ⟨2, _⟩ => rfl

/-- The reference's distance array at (b, p, q). -/
theorem dist_at (x0 x1 : S16x4096x3.Idx → Ideal .f32) (b : Fin 16) (p q : Fin 4096) :
    val_main_v12 (F := Ideal) x0 x1 (ix3 b p q) = DR x0 x1 b p q := by
  rw [val_main_v12_apply, val_main_v9_apply, val_main_v7_apply, val_main_v5_apply, val_main_v1_apply,
    val_main_v8_apply, val_main_v6_apply, val_main_v3_apply, val_main_v11_apply, val_main_v10_apply,
    val_main_v4_apply]
  simp only [Fin.sum_univ_three, val_main_v0_apply, val_main_v2_apply, val_main_cst_apply, val_main_cst_0_apply,
    val_main_cst_1_apply, sqnorm0_idx, sqnorm1_idx, inner_lidx, inner_ridx, Ideal.mulf_def, Ideal.addf_def,
    Ideal.subf_def, Ideal.ofBits_def]
  rfl

/-- For every point of the first cloud the reference's minimum over the second cloud. -/
theorem rowMin_at (x0 x1 : S16x4096x3.Idx → Ideal .f32) (b : Fin 16) (p : Fin 4096) :
    val_main_v13 (F := Ideal) x0 x1 (ix2 b p)
      = (Finset.univ : Finset (Fin 4096)).fold min ⊤ fun q => DR x0 x1 b p q := by
  unfold val_main_v13
  have h : S16x4096x4096.Reduces [2] S16x4096 := by decide
  refine (Host.reduce_eq_fold_single FloatOps.minimumf _ _ reducesTo_S16x4096x4096_S16x4096_d2 h h_S_ (ix2 b p)).trans ?_
  rw [val_main_cst_2_apply, Ideal.ofBits_def, Cert.Consts.ofBits_top]
  refine congrArg (fun f => Finset.fold min ⊤ f (Finset.univ : Finset (Fin 4096))) (funext fun q => ?_)
  show val_main_v12 (F := Ideal) x0 x1 (h.lift (ix2 b p) q) = _
  rw [show h.lift (ix2 b p) q = ix3 b p q from funext fun a => Fin.ext (by
    match a with
    | ⟨0, _⟩ => rfl
    | ⟨1, _⟩ => rfl
    | ⟨2, _⟩ => rfl)]
  exact dist_at x0 x1 b p q

/-- For every point of the second cloud the reference's minimum over the first cloud. -/
theorem colMin_at (x0 x1 : S16x4096x3.Idx → Ideal .f32) (b : Fin 16) (q : Fin 4096) :
    val_main_v14 (F := Ideal) x0 x1 (ix2 b q)
      = (Finset.univ : Finset (Fin 4096)).fold min ⊤ fun p => DR x0 x1 b p q := by
  unfold val_main_v14
  have h : S16x4096x4096.Reduces [1] S16x4096 := by decide
  refine (Host.reduce_eq_fold_single FloatOps.minimumf _ _ reducesTo_S16x4096x4096_S16x4096_d1 h h_S_ (ix2 b q)).trans ?_
  rw [val_main_cst_3_apply, Ideal.ofBits_def, Cert.Consts.ofBits_top]
  refine congrArg (fun f => Finset.fold min ⊤ f (Finset.univ : Finset (Fin 4096))) (funext fun p => ?_)
  show val_main_v12 (F := Ideal) x0 x1 (h.lift (ix2 b q) p) = _
  rw [show h.lift (ix2 b q) p = ix3 b p q from funext fun a => Fin.ext (by
    match a with
    | ⟨0, _⟩ => rfl
    | ⟨1, _⟩ => rfl
    | ⟨2, _⟩ => rfl)]
  exact dist_at x0 x1 b p q

/-- The reference's result: the two sums of minima, each from 0 and multiplied by 1, added and divided by the word
    of 16. -/
theorem result_at (x0 x1 : S16x4096x3.Idx → Ideal .f32) (i : S_.Idx) :
    val_main_v20 (F := Ideal) x0 x1 i
      = Ideal.div
          ((0 + ∑ j : S16x4096.Idx, (Finset.univ : Finset (Fin 4096)).fold min ⊤ fun q => DR x0 x1 (j 0) (j 1) q)
            + (0 + ∑ j : S16x4096.Idx, (Finset.univ : Finset (Fin 4096)).fold min ⊤ fun p => DR x0 x1 (j 0) p (j 1)))
          (Ideal.ofBits .f32 0x41800000#32) := by
  rw [val_main_v20_apply, val_main_v19_apply, val_main_v16_apply, val_main_v18_apply, val_main_v15_apply,
    val_main_v17_apply]
  simp only [val_main_cst_4_apply, val_main_cst_5_apply, val_main_cst_6_apply, val_main_cst_7_apply,
    val_main_cst_8_apply, Ideal.mulf_def, Ideal.addf_def, Ideal.hostDivf_def, Ideal.ofBits_def,
    Cert.Consts.ofBits_zero, Cert.Consts.ofBits_one, one_mul]
  have e1 : ∀ j : S16x4096.Idx, val_main_v13 (F := Ideal) x0 x1 j
      = (Finset.univ : Finset (Fin 4096)).fold min ⊤ fun q => DR x0 x1 (j 0) (j 1) q := fun j => by
    rw [eq_ix2 j]; exact rowMin_at x0 x1 (j 0) (j 1)
  have e2 : ∀ j : S16x4096.Idx, val_main_v14 (F := Ideal) x0 x1 j
      = (Finset.univ : Finset (Fin 4096)).fold min ⊤ fun p => DR x0 x1 (j 0) p (j 1) := fun j => by
    rw [eq_ix2 j]; exact colMin_at x0 x1 (j 0) (j 1)
  simp only [e1, e2]

end Cert.ReferenceIdeal.RefValue

end
-- ==== Proof.Finite.lean ====
/-
  The precondition read back: every coordinate of both clouds is a real number.

  The precondition is the conjunction of two `all` reductions, one per cloud, of the test `|x| < +inf`. At the ideal
  instance an extended real passes that test exactly when it is a real.
-/
import proofs.«155151_j25074019074268_2_alg».proof.Pre_finite_inputs
import proofs.«155151_j25074019074268_2_alg».proof.Proof.LibFinite
import Idealize.ShloMosaic.Lib.ReduceAll
import Idealize.ShloMosaic.Lib.ValueIdx

noncomputable section

open Idealize.ShloMosaic

namespace Cert.Pre_finite_inputs.Decode

open Cert.Pre_finite_inputs Cert.Lib.Finite

/-- Where the precondition holds, every entry of both arrays is a real. -/
theorem real_of_pre [Facts] (x0 x1 : FVec Ideal S16x4096x3 .f32) (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  refine ⟨fun i => ?_, fun i => ?_⟩
  · exact real_of_cmp (x0 i) (Host.reduce_andi_all _ _ _ _ _ ha i)
  · exact real_of_cmp (x1 i) (Host.reduce_andi_all _ _ _ _ _ hb i)

end Cert.Pre_finite_inputs.Decode

end
-- ==== Proof.Bridge.lean ====
/-
  The two results are one number.

  With real coordinates the sum of the three squared coordinate differences is the two squared norms added less twice
  the inner product, so the kernel's and the reference's distance arrays agree entry by entry; then so do the minima
  over either cloud, their sums (the kernel sums over arrays with a unit middle axis, the reference over matrices: the
  same terms), and the final quotient by 16.
-/
import proofs.«155151_j25074019074268_2_alg».proof.Proof.KernelRun
import proofs.«155151_j25074019074268_2_alg».proof.Proof.RefSide
import proofs.«155151_j25074019074268_2_alg».proof.Proof.Finite

noncomputable section

open Idealize.ShloMosaic Idealize.ShloMosaic.TcCoe Idealize.SL.Sem Idealize.ShloMosaic.ValueIdx

namespace Cert.Proof.Bridge

open Cert.KernelIdeal Cert.KernelIdeal.Inv Cert.KernelIdeal.Arrays Cert.KernelIdeal.Run Cert.ReferenceIdeal.RefValue

variable (m : (ℓ : Loc nD τ sig) → Buf (Elt Ideal) ℓ)

/-- A sum over an array with a unit middle axis is the sum over the matrix of its other two coordinates. -/
theorem sum_unit_axis {M : Type*} [AddCommMonoid M] (f : (⟨3, ![16, 1, 4096]⟩ : Shape).Idx → M) :
    ∑ i, f i = ∑ j : (⟨2, ![16, 4096]⟩ : Shape).Idx, f (ix3 (j 0) 0 (j 1)) := by
  refine (Fintype.sum_equiv
    (⟨fun j => ix3 (j 0) 0 (j 1), fun i => ix2 (i 0) (i 2), fun j => ?_, fun i => ?_⟩ :
      (⟨2, ![16, 4096]⟩ : Shape).Idx ≃ (⟨3, ![16, 1, 4096]⟩ : Shape).Idx)
    (fun j => f (ix3 (j 0) 0 (j 1))) f fun j => rfl).symm
  · funext a
    match a with
    | ⟨0, _⟩ => rfl
    | ⟨1, _⟩ => rfl
  · funext a
    match a with
    | ⟨0, _⟩ => rfl
    | ⟨1, _⟩ => exact Subsingleton.elim (α := Fin 1) _ _
    | ⟨2, _⟩ => rfl

/-- With real coordinates the kernel's squared distance of a pair is the reference's. -/
theorem dist_eq (c : Dev nD)
    (hx0 : ∀ i, ∃ r : ℝ, (m ((c : Thread nD τ).loc main_arg0) : S16x4096x3.Idx → Ideal .f32) i = (r : EReal))
    (hx1 : ∀ i, ∃ r : ℝ, (m ((c : Thread nD τ).loc main_arg1) : S16x4096x3.Idx → Ideal .f32) i = (r : EReal))
    (b : Fin 16) (p q : Fin 4096) :
    D m c b p q = DR (m ((c : Thread nD τ).loc main_arg0)) (m ((c : Thread nD τ).loc main_arg1)) b p q := by
  unfold D DR
  rw [X_eq, X_eq, X_eq, Y_eq, Y_eq, Y_eq]
  obtain ⟨a0, h0⟩ := hx0 (ix3 b p 0)
  obtain ⟨a1, h1⟩ := hx0 (ix3 b p 1)
  obtain ⟨a2, h2⟩ := hx0 (ix3 b p 2)
  obtain ⟨b0, k0⟩ := hx1 (ix3 b q 0)
  obtain ⟨b1, k1⟩ := hx1 (ix3 b q 1)
  obtain ⟨b2, k2⟩ := hx1 (ix3 b q 2)
  rw [h0, h1, h2, k0, k1, k2, Cert.Consts.ofBits_zero, Cert.Consts.ofBits_two, ← EReal.coe_zero]
  exact Chamfer.dDiff_eq_dExp a0 a1 a2 b0 b1 b2

/-- The kernel's result is the reference's result of the same two arrays. -/
theorem result_eq (c : Dev nD)
    (hx0 : ∀ i, ∃ r : ℝ, (m ((c : Thread nD τ).loc main_arg0) : S16x4096x3.Idx → Ideal .f32) i = (r : EReal))
    (hx1 : ∀ i, ∃ r : ℝ, (m ((c : Thread nD τ).loc main_arg1) : S16x4096x3.Idx → Ideal .f32) i = (r : EReal))
    (i : S_.Idx) :
    result m c i = Cert.ReferenceIdeal.Read.val_main_v20 (F := Ideal) (m ((c : Thread nD τ).loc main_arg0))
      (m ((c : Thread nD τ).loc main_arg1)) i := by
  rw [result_at]
  unfold result
  rw [sum_unit_axis (rowMins m c), sum_unit_axis (colMins m c)]
  have e1 : ∀ j : (⟨2, ![16, 4096]⟩ : Shape).Idx, rowMins m c (ix3 (j 0) 0 (j 1))
      = (Finset.univ : Finset (Fin 4096)).fold min ⊤ fun q =>
          DR (m ((c : Thread nD τ).loc main_arg0)) (m ((c : Thread nD τ).loc main_arg1)) (j 0) (j 1) q := fun j =>
    (rowMins_at m c _ (j 0) (j 1) rfl rfl).trans
      (congrArg (fun f => Finset.fold min ⊤ f (Finset.univ : Finset (Fin 4096)))
        (funext fun q => dist_eq m c hx0 hx1 (j 0) (j 1) q))
  have e2 : ∀ j : (⟨2, ![16, 4096]⟩ : Shape).Idx, colMins m c (ix3 (j 0) 0 (j 1))
      = (Finset.univ : Finset (Fin 4096)).fold min ⊤ fun p =>
          DR (m ((c : Thread nD τ).loc main_arg0)) (m ((c : Thread nD τ).loc main_arg1)) (j 0) p (j 1) := fun j =>
    (colMins_at m c _ (j 0) (j 1) rfl rfl).trans
      (congrArg (fun f => Finset.fold min ⊤ f (Finset.univ : Finset (Fin 4096)))
        (funext fun p => dist_eq m c hx0 hx1 (j 0) p (j 1)))
  simp only [e1, e2]

end Cert.Proof.Bridge

end
-- ==== Proof.lean ====
/-
  The nearest-neighbour (Chamfer) distance of two clouds of 4096 points in three coordinates, 16 batch elements: for
  every point the squared distance to the nearest point of the other cloud, both families summed, the total divided
  by 16.

  The kernel sweeps the 4096 x 4096 table of squared distances of a batch element in tiles of 2048 x 1024, each entry the
  sum of the three squared coordinate differences, and keeps two running minima: one per row of the current row
  block, reset at the block's first tile, and one per column, reset at the batch element's first tile. The reference
  forms the table at once as the squared norms added less twice the inner products and takes the minima along either
  axis. At the ideal instance:

  * a minimum over 4096 candidates taken chunk by chunk with a running minimum is the minimum over all of them, in
    whatever order the chunks come (a linear order with a top element);
  * on REAL coordinates the two forms of the squared distance are one number; the precondition makes every coordinate
    real, and it is needed, since at an infinity the difference form and the expanded form part;
  * the kernel's output arrays carry a unit middle axis the reference's do not: the sums run over the same terms.

  The three frames are the generated ones (the reference's is its run with the result dropped); the idealization
  rewrote nothing, so it preserves the kernel trivially.
-/
import proofs.«155151_j25074019074268_2_alg».proof.Defs
import proofs.«155151_j25074019074268_2_alg».proof.Proof.Gen.Kernel
import proofs.«155151_j25074019074268_2_alg».proof.Proof.Gen.Kernel.Skeleton
import proofs.«155151_j25074019074268_2_alg».proof.Proof.Gen.Kernel.Launch
import proofs.«155151_j25074019074268_2_alg».proof.Proof.Gen.Kernel.Points
import proofs.«155151_j25074019074268_2_alg».proof.Proof.Gen.Kernel.Frame
import proofs.«155151_j25074019074268_2_alg».proof.Proof.Gen.KernelIdeal
import proofs.«155151_j25074019074268_2_alg».proof.Proof.Gen.KernelIdeal.Skeleton
import proofs.«155151_j25074019074268_2_alg».proof.Proof.Gen.KernelIdeal.Launch
import proofs.«155151_j25074019074268_2_alg».proof.Proof.Gen.KernelIdeal.Points
import proofs.«155151_j25074019074268_2_alg».proof.Proof.Gen.KernelIdeal.Frame
import proofs.«155151_j25074019074268_2_alg».proof.Proof.Gen.ReferenceIdeal
import proofs.«155151_j25074019074268_2_alg».proof.Proof.Gen.ReferenceIdeal.Run
import proofs.«155151_j25074019074268_2_alg».proof.Proof.Gen.ReferenceIdeal.Read
import proofs.«155151_j25074019074268_2_alg».proof.Proof.Gen.Pre_finite_inputs
import proofs.«155151_j25074019074268_2_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance, from memories agreeing on the two clouds, the kernel and the reference end with the same
    scalar: the kernel's two sums of running minima divided by 16 are the reference's, once the precondition has made
    every coordinate real. -/
theorem algebraic : Cert.algebraic_KernelIdeal_ReferenceIdeal := by
  intro m ρ m' ρ' hpre hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v20_eq _ _).trans ?_
  rw [(hagree c).1, (hagree c).2]
  obtain ⟨hx0, hx1⟩ := Cert.Pre_finite_inputs.Decode.real_of_pre _ _ (hpre c)
  funext i
  exact (Cert.Proof.Bridge.result_eq m c hx0 hx1 i).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
